-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x256 : Shape := ⟨3, ![2048, 64, 256]⟩
abbrev S2048x512 : Shape := ⟨2, ![2048, 512]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S2048x64x256 : S_.BroadcastsInDim S2048x64x256 (![] : Fin 0 → Fin S2048x64x256.rank)
  reducesTo_S2048x64x256_S_d0_1_2 : S2048x64x256.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S2048x64x256 .f32) (main_arg1 : FVec F S2048x512 .f32) (main_arg2 : FVec F S256x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S2048x64x256 .f32 := Host.absf main_arg0
  let main_cst : FVec F S_ .f32 := constant S_ .f32 0x7F800000#32
  let main_v1 : FVec F S2048x64x256 .f32 := broadcastInDim S2048x64x256 ![] bcast_S_S2048x64x256 main_cst
  let main_v2 : IVec S2048x64x256 1 := cmpf .olt main_v0 main_v1
  let main_c : IVec S_ 1 := constantI S_ 1 1#1
  let main_v3 : IVec S_ 1 := (fun x v => Host.reduce IntOp.andi x v reducesTo_S2048x64x256_S_d0_1_2 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S2048x64x256 : Shape := ⟨3, ![2048, 64, 256]⟩
abbrev S2048x512 : Shape := ⟨2, ![2048, 512]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S1x512 : Shape := ⟨2, ![1, 512]⟩
abbrev S1x1 : Shape := ⟨2, ![1, 1]⟩
abbrev S2048x256 : Shape := ⟨2, ![2048, 256]⟩
abbrev S2048x64 : Shape := ⟨2, ![2048, 64]⟩
abbrev S128x64x256 : Shape := ⟨3, ![128, 64, 256]⟩
abbrev S128x512 : Shape := ⟨2, ![128, 512]⟩
abbrev S128x256 : Shape := ⟨2, ![128, 256]⟩
abbrev S128x64 : Shape := ⟨2, ![128, 64]⟩
abbrev S1x1x512 : Shape := ⟨3, ![1, 1, 512]⟩
abbrev S16x64x256 : Shape := ⟨3, ![16, 64, 256]⟩
abbrev S1024x256 : Shape := ⟨2, ![1024, 256]⟩
abbrev S1024x512 : Shape := ⟨2, ![1024, 512]⟩
abbrev S16x64x512 : Shape := ⟨3, ![16, 64, 512]⟩
abbrev S16x512 : Shape := ⟨2, ![16, 512]⟩
abbrev S16x1x512 : Shape := ⟨3, ![16, 1, 512]⟩
abbrev S16x64 : Shape := ⟨2, ![16, 64]⟩
abbrev S128 : Shape := ⟨1, ![128]⟩
abbrev S128x1 : Shape := ⟨2, ![128, 1]⟩
abbrev S16x64x1 : Shape := ⟨3, ![16, 64, 1]⟩
abbrev S16x256 : Shape := ⟨2, ![16, 256]⟩
abbrev S2048x64x1 : Shape := ⟨3, ![2048, 64, 1]⟩

abbrev nBuf : Space → Nat
  | .hbm => 15
  | .vmem => 16
  | .smem => 0
  | _ => 0

abbrev bufTy : (tb : Table) → Fin (tcTables nBuf tb) → BufTy
  | .hbm, ⟨0, _⟩ => ⟨S2048x64x256, .f32⟩
  | .hbm, ⟨1, _⟩ => ⟨S2048x512, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x1, .f32⟩
  | .hbm, ⟨12, _⟩ => ⟨S2048x256, .f32⟩
  | .hbm, ⟨13, _⟩ => ⟨S2048x64, .f32⟩
  | .hbm, ⟨14, _⟩ => ⟨S2048x64x1, .f32⟩
  | .local _ .vmem, ⟨0, _⟩ => ⟨S128x64x256, .f32⟩
  | .local _ .vmem, ⟨1, _⟩ => ⟨S128x64x256, .f32⟩
  | .local _ .vmem, ⟨2, _⟩ => ⟨S128x512, .f32⟩
  | .local _ .vmem, ⟨3, _⟩ => ⟨S128x512, .f32⟩
  | .local _ .vmem, ⟨4, _⟩ => ⟨S256x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S1x1, .f32⟩
  | .local _ .vmem, ⟨10, _⟩ => ⟨S128x256, .f32⟩
  | .local _ .vmem, ⟨11, _⟩ => ⟨S128x256, .f32⟩
  | .local _ .vmem, ⟨12, _⟩ => ⟨S128x64, .f32⟩
  | .local _ .vmem, ⟨13, _⟩ => ⟨S128x64, .f32⟩
  | .local _ .vmem, ⟨14, _⟩ => ⟨S128x512, .f32⟩
  | .local _ .vmem, ⟨15, _⟩ => ⟨S128x64, .f32⟩
  | _, _ => ⟨S2048x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v22 : BitVec 32 := Scalar.addi c0_i32 c8_i32
  let c1_i32 : BitVec 32 := 1#32
  ⟨c0_i32, v22, c1_i32⟩
def k0_mult1 (k0_t1 : Fin k0_t1_loop.trips) : BitVec 32 :=
  let c0_i32_27 : BitVec 32 := 0#32
  let c0_i32 : BitVec 32 := 0#32
  let c1_i32 : BitVec 32 := 1#32
  let arg13 : BitVec 32 := Scf.iv c0_i32 c1_i32 k0_t1
  let c1_i32_26 : BitVec 32 := 1#32
  let v35 : BitVec 32 := Scalar.muli arg13 c1_i32_26
  let v36 : BitVec 32 := Scalar.addi c0_i32_27 v35
  let c16_i32 : BitVec 32 := 16#32
  let v37 : BitVec 32 := Scalar.muli v36 c16_i32
  v37
def k0_off1 (k0_t1 : Fin k0_t1_loop.trips) : Fin 3 → Nat :=
  let c0_i32_27 : BitVec 32 := 0#32
  let c0_i32 : BitVec 32 := 0#32
  let c1_i32 : BitVec 32 := 1#32
  let arg13 : BitVec 32 := Scf.iv c0_i32 c1_i32 k0_t1
  let c1_i32_26 : BitVec 32 := 1#32
  let v35 : BitVec 32 := Scalar.muli arg13 c1_i32_26
  let v36 : BitVec 32 := Scalar.addi c0_i32_27 v35
  let c16_i32 : BitVec 32 := 16#32
  let v37 : BitVec 32 := Scalar.muli v36 c16_i32
  let v38 : BitVec 32 := v37
  let v39 : Index := Scalar.indexCast v38
  let c0_28 : Index := 0#32
  let c0_29 : Index := 0#32
  ![v39.toNat, 0, 0]
def k0_off2 (k0_t1 : Fin k0_t1_loop.trips) : Fin 2 → Nat :=
  let c0_i32_27 : BitVec 32 := 0#32
  let c0_i32 : BitVec 32 := 0#32
  let c1_i32 : BitVec 32 := 1#32
  let arg13 : BitVec 32 := Scf.iv c0_i32 c1_i32 k0_t1
  let c1_i32_26 : BitVec 32 := 1#32
  let v35 : BitVec 32 := Scalar.muli arg13 c1_i32_26
  let v36 : BitVec 32 := Scalar.addi c0_i32_27 v35
  let c16_i32 : BitVec 32 := 16#32
  let v37 : BitVec 32 := Scalar.muli v36 c16_i32
  let v38 : BitVec 32 := v37
  let v47 : Index := Scalar.indexCast v38
  let c0_31 : Index := 0#32
  ![v47.toNat, 0]
def k0_off3 (k0_t1 : Fin k0_t1_loop.trips) : Fin 2 → Nat :=
  let c0_i32_27 : BitVec 32 := 0#32
  let c0_i32 : BitVec 32 := 0#32
  let c1_i32 : BitVec 32 := 1#32
  let arg13 : BitVec 32 := Scf.iv c0_i32 c1_i32 k0_t1
  let c1_i32_26 : BitVec 32 := 1#32
  let v35 : BitVec 32 := Scalar.muli arg13 c1_i32_26
  let v36 : BitVec 32 := Scalar.addi c0_i32_27 v35
  let c16_i32 : BitVec 32 := 16#32
  let v37 : BitVec 32 := Scalar.muli v36 c16_i32
  let v38 : BitVec 32 := v37
  let v58 : Index := Scalar.indexCast v38
  let c0_33 : Index := 0#32
  ![v58.toNat, 0]
@[reducible] def k0_t2_loop : Scf.Loop 32 :=
  let c0_i32_22 : BitVec 32 := 0#32
  let c8_i32_23 : BitVec 32 := 8#32
  let v34 : BitVec 32 := Scalar.addi c0_i32_22 c8_i32_23
  let c1_i32_24 : BitVec 32 := 1#32
  ⟨c0_i32_22, v34, c1_i32_24⟩
def k0_mult2 (k0_t2 : Fin k0_t2_loop.trips) : BitVec 32 :=
  let c0_i32_27 : BitVec 32 := 0#32
  let c0_i32_22 : BitVec 32 := 0#32
  let c1_i32_24 : BitVec 32 := 1#32
  let arg13 : BitVec 32 := Scf.iv c0_i32_22 c1_i32_24 k0_t2
  let c1_i32_26 : BitVec 32 := 1#32
  let v35 : BitVec 32 := Scalar.muli arg13 c1_i32_26
  let v36 : BitVec 32 := Scalar.addi c0_i32_27 v35
  let c16_i32 : BitVec 32 := 16#32
  let v37 : BitVec 32 := Scalar.muli v36 c16_i32
  v37
def k0_off4 (k0_t2 : Fin k0_t2_loop.trips) : Fin 3 → Nat :=
  let c0_i32_27 : BitVec 32 := 0#32
  let c0_i32_22 : BitVec 32 := 0#32
  let c1_i32_24 : BitVec 32 := 1#32
  let arg13 : BitVec 32 := Scf.iv c0_i32_22 c1_i32_24 k0_t2
  let c1_i32_26 : BitVec 32 := 1#32
  let v35 : BitVec 32 := Scalar.muli arg13 c1_i32_26
  let v36 : BitVec 32 := Scalar.addi c0_i32_27 v35
  let c16_i32 : BitVec 32 := 16#32
  let v37 : BitVec 32 := Scalar.muli v36 c16_i32
  let v38 : BitVec 32 := v37
  let v39 : Index := Scalar.indexCast v38
  let c0_28 : Index := 0#32
  let c0_29 : Index := 0#32
  ![v39.toNat, 0, 0]
def k0_off5 (k0_t2 : Fin k0_t2_loop.trips) : Fin 2 → Nat :=
  let c0_i32_27 : BitVec 32 := 0#32
  let c0_i32_22 : BitVec 32 := 0#32
  let c1_i32_24 : BitVec 32 := 1#32
  let arg13 : BitVec 32 := Scf.iv c0_i32_22 c1_i32_24 k0_t2
  let c1_i32_26 : BitVec 32 := 1#32
  let v35 : BitVec 32 := Scalar.muli arg13 c1_i32_26
  let v36 : BitVec 32 := Scalar.addi c0_i32_27 v35
  let c16_i32 : BitVec 32 := 16#32
  let v37 : BitVec 32 := Scalar.muli v36 c16_i32
  let v38 : BitVec 32 := v37
  let v41 : Index := Scalar.indexCast v38
  let c0_30 : Index := 0#32
  ![v41.toNat, 0]
def k0_off6 (k0_t2 : Fin k0_t2_loop.trips) : Fin 2 → Nat :=
  let c0_i32_27 : BitVec 32 := 0#32
  let c0_i32_22 : BitVec 32 := 0#32
  let c1_i32_24 : BitVec 32 := 1#32
  let arg13 : BitVec 32 := Scf.iv c0_i32_22 c1_i32_24 k0_t2
  let c1_i32_26 : BitVec 32 := 1#32
  let v35 : BitVec 32 := Scalar.muli arg13 c1_i32_26
  let v36 : BitVec 32 := Scalar.addi c0_i32_27 v35
  let c16_i32 : BitVec 32 := 16#32
  let v37 : BitVec 32 := Scalar.muli v36 c16_i32
  let v38 : BitVec 32 := v37
  let v48 : Index := Scalar.indexCast v38
  let c0_32 : Index := 0#32
  ![v48.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S512_S1x512 : S512.ShapeCasts S1x512
  shapeCasts_S512x1_S1x512 : S512x1.ShapeCasts S1x512
  shapeCasts_S1_S1x1 : S1.ShapeCasts S1x1
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  shapeCasts_S128x512_S128x512 : S128x512.ShapeCasts S128x512
  inb_S256x512_S256x512_0_0 : ∀ a, (![0, 0] : Fin 2 → Nat) a + S256x512.size a ≤ S256x512.size a
  h_S256x512 : 0 < S256x512.numel
  shapeCasts_S1x512_S1x1x512 : S1x512.ShapeCasts S1x1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  h_S16x64x256 : 0 < S16x64x256.numel
  shapeCasts_S16x64x256_S1024x256 : S16x64x256.ShapeCasts S1024x256
  broadcasts_S1x512_S1024x512 : S1x512.Broadcasts S1024x512
  shapeCasts_S1024x512_S16x64x512 : S1024x512.ShapeCasts S16x64x512
  h_S16x512 : 0 < S16x512.numel
  shapeCasts_S16x512_S16x1x512 : S16x512.ShapeCasts S16x1x512
  broadcasts_S16x1x512_S16x64x512 : S16x1x512.Broadcasts S16x64x512
  broadcasts_S1x1x512_S16x64x512 : S1x1x512.Broadcasts S16x64x512
  reduces_S16x64x512_S16x64 : S16x64x512.Reduces [2] S16x64
  h_S16x64 : 0 < S16x64.numel
  shapeCasts_S16x64_S16x64 : S16x64.ShapeCasts S16x64
  inb_S128x64_S128x64_0_0 : ∀ a, (![0, 0] : Fin 2 → Nat) a + S128x64.size a ≤ S128x64.size a
  h_S128x64 : 0 < S128x64.numel
  reduces_S128x64_S128 : S128x64.Reduces [1] S128
  shapeCasts_S128_S128x1 : S128.ShapeCasts S128x1
  broadcasts_S128x1_S128x64 : S128x1.Broadcasts S128x64
  shapeCasts_S16x64_S16x64x1 : S16x64.ShapeCasts S16x64x1
  broadcasts_S16x64x1_S16x64x256 : S16x64x1.Broadcasts S16x64x256
  reduces_S16x64x256_S16x256 : S16x64x256.Reduces [1] S16x256
  h_S16x256 : 0 < S16x256.numel
  shapeCasts_S2048x64_S2048x64x1 : S2048x64.ShapeCasts S2048x64x1
  dot_S128x512_S512x512_S128x512_1_0_0_1_n_n_wf : DotDims.WF S128x512 S512x512 S128x512 [1] [0] [0] [1] [] []
  dot_S1024x256_S256x512_S1024x512_1_0_0_1_n_n_wf : DotDims.WF S1024x256 S256x512 S1024x512 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x64x256.size a ≤ S128x64x256.size a
  k0_off2_inb : ∀ k0_t1 : Fin k0_t1_loop.trips, ∀ a, (k0_off2 k0_t1) a + S16x512.size a ≤ S128x512.size a
  k0_off3_inb : ∀ k0_t1 : Fin k0_t1_loop.trips, ∀ a, (k0_off3 k0_t1) a + S16x64.size a ≤ S128x64.size a
  k0_t2_ok : k0_t2_loop.OK
  k0_mult2_dvd : ∀ k0_t2 : Fin k0_t2_loop.trips, 16 ∣ (k0_mult2 k0_t2).toNat
  k0_off4_inb : ∀ k0_t2 : Fin k0_t2_loop.trips, ∀ a, (k0_off4 k0_t2) a + S16x64x256.size a ≤ S128x64x256.size a
  k0_off5_inb : ∀ k0_t2 : Fin k0_t2_loop.trips, ∀ a, (k0_off5 k0_t2) a + S16x64.size a ≤ S128x64.size a
  k0_off6_inb : ∀ k0_t2 : Fin k0_t2_loop.trips, ∀ a, (k0_off6 k0_t2) a + S16x256.size a ≤ S128x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x256.size a ≤ S2048x64x256.size a
  hwx0_0 : ∀ i : grid0.Coords, EltTy.bits .f32 = 32 ∨ (Rect.block (s := S2048x64x256) S128x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S2048x512.size a
  hwx0_1 : ∀ i : grid0.Coords, EltTy.bits .f32 = 32 ∨ (Rect.block (s := S2048x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x256.size a ≤ S2048x256.size a
  hwx0_8 : ∀ i : grid0.Coords, EltTy.bits .f32 = 32 ∨ (Rect.block (s := S2048x256) S128x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S2048x64.size a
  hwx0_9 : ∀ i : grid0.Coords, EltTy.bits .f32 = 32 ∨ (Rect.block (s := S2048x64) S128x64.size (cc0_transform_9 i) (hinb0_9 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S128x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S128x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S128x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2048x64x256 : Shape := ⟨3, ![2048, 64, 256]⟩
abbrev S2048x512 : Shape := ⟨2, ![2048, 512]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S2048x64x512 : Shape := ⟨3, ![2048, 64, 512]⟩
abbrev S1x1x512 : Shape := ⟨3, ![1, 1, 512]⟩
abbrev S1x512 : Shape := ⟨2, ![1, 512]⟩
abbrev S2048x1x512 : Shape := ⟨3, ![2048, 1, 512]⟩
abbrev S2048x64x1 : Shape := ⟨3, ![2048, 64, 1]⟩
abbrev S1x1x1 : Shape := ⟨3, ![1, 1, 1]⟩
abbrev S_ : Shape := ⟨0, ![]⟩
abbrev S2048x1 : Shape := ⟨2, ![2048, 1]⟩
abbrev S2048x1x1 : Shape := ⟨3, ![2048, 1, 1]⟩
abbrev S2048x256 : Shape := ⟨2, ![2048, 256]⟩

abbrev nBuf : Space → Nat
  | .hbm => 42
  | .vmem => 0
  | .smem => 0
  | _ => 0

abbrev bufTy : (tb : Table) → Fin (tcTables nBuf tb) → BufTy
  | .hbm, ⟨0, _⟩ => ⟨S2048x64x256, .f32⟩
  | .hbm, ⟨1, _⟩ => ⟨S2048x512, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S2048x64x512, .f32⟩
  | .hbm, ⟨9, _⟩ => ⟨S1x1x512, .f32⟩
  | .hbm, ⟨10, _⟩ => ⟨S2048x64x512, .f32⟩
  | .hbm, ⟨11, _⟩ => ⟨S2048x64x512, .f32⟩
  | .hbm, ⟨12, _⟩ => ⟨S2048x512, .f32⟩
  | .hbm, ⟨13, _⟩ => ⟨S1x512, .f32⟩
  | .hbm, ⟨14, _⟩ => ⟨S2048x512, .f32⟩
  | .hbm, ⟨15, _⟩ => ⟨S2048x512, .f32⟩
  | .hbm, ⟨16, _⟩ => ⟨S2048x1x512, .f32⟩
  | .hbm, ⟨17, _⟩ => ⟨S2048x64x512, .f32⟩
  | .hbm, ⟨18, _⟩ => ⟨S2048x64x512, .f32⟩
  | .hbm, ⟨19, _⟩ => ⟨S2048x64x512, .f32⟩
  | .hbm, ⟨20, _⟩ => ⟨S2048x64x1, .f32⟩
  | .hbm, ⟨21, _⟩ => ⟨S1x1x1, .f32⟩
  | .hbm, ⟨22, _⟩ => ⟨S2048x64x1, .f32⟩
  | .hbm, ⟨23, _⟩ => ⟨S2048x64x1, .f32⟩
  | .hbm, ⟨24, _⟩ => ⟨S_, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1x1, .f32⟩
  | .hbm, ⟨30, _⟩ => ⟨S2048x64x1, .f32⟩
  | .hbm, ⟨31, _⟩ => ⟨S2048x64x1, .f32⟩
  | .hbm, ⟨32, _⟩ => ⟨S2048x64x1, .f32⟩
  | .hbm, ⟨33, _⟩ => ⟨S_, .f32⟩
  | .hbm, ⟨34, _⟩ => ⟨S2048x1, .f32⟩
  | .hbm, ⟨35, _⟩ => ⟨S2048x1x1, .f32⟩
  | .hbm, ⟨36, _⟩ => ⟨S2048x64x1, .f32⟩
  | .hbm, ⟨37, _⟩ => ⟨S2048x64x1, .f32⟩
  | .hbm, ⟨38, _⟩ => ⟨S2048x64x256, .f32⟩
  | .hbm, ⟨39, _⟩ => ⟨S2048x64x256, .f32⟩
  | .hbm, ⟨40, _⟩ => ⟨S_, .f32⟩
  | .hbm, ⟨41, _⟩ => ⟨S2048x256, .f32⟩
  | _, _ => ⟨S2048x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S2048x64x512_0_1_2 : S1x1x512.BroadcastsInDim S2048x64x512 (![0, 1, 2] : Fin 3 → Fin S2048x64x512.rank)
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S2048x512_S2048x1x512_0_2 : S2048x512.BroadcastsInDim S2048x1x512 (![0, 2] : Fin 2 → Fin S2048x1x512.rank)
  bcast_S2048x1x512_S2048x64x512_0_1_2 : S2048x1x512.BroadcastsInDim S2048x64x512 (![0, 1, 2] : Fin 3 → Fin S2048x64x512.rank)
  bcast_S1_S1x1x1_2 : S1.BroadcastsInDim S1x1x1 (![2] : Fin 1 → Fin S1x1x1.rank)
  bcast_S1x1x1_S2048x64x1_0_1_2 : S1x1x1.BroadcastsInDim S2048x64x1 (![0, 1, 2] : Fin 3 → Fin S2048x64x1.rank)
  reducesTo_S2048x64x1_S2048x1_d1 : S2048x64x1.ReducesTo [1] S2048x1
  h_S_ : 0 < S_.numel
  bcast_S_S2048x1 : S_.BroadcastsInDim S2048x1 (![] : Fin 0 → Fin S2048x1.rank)
  bcast_S2048x1_S2048x1x1_0_2 : S2048x1.BroadcastsInDim S2048x1x1 (![0, 2] : Fin 2 → Fin S2048x1x1.rank)
  bcast_S2048x1x1_S2048x64x1_0_1_2 : S2048x1x1.BroadcastsInDim S2048x64x1 (![0, 1, 2] : Fin 3 → Fin S2048x64x1.rank)
  bcast_S2048x64x1_S2048x64x256_0_1_2 : S2048x64x1.BroadcastsInDim S2048x64x256 (![0, 1, 2] : Fin 3 → Fin S2048x64x256.rank)
  reducesTo_S2048x64x256_S2048x256_d1 : S2048x64x256.ReducesTo [1] S2048x256
  dot_S2048x64x256_S256x512_S2048x64x512_2_0_01_1_n_n_wf : DotDims.WF S2048x64x256 S256x512 S2048x64x512 [2] [0] [0, 1] [1] [] []
  dot_S2048x512_S512x512_S2048x512_1_0_0_1_n_n_wf : DotDims.WF S2048x512 S512x512 S2048x512 [1] [0] [0] [1] [] []
  dot_S2048x64x512_S512x1_S2048x64x1_2_0_01_1_n_n_wf : DotDims.WF S2048x64x512 S512x1 S2048x64x1 [2] [0] [0, 1] [1] [] []

variable [Facts₀]

def dot_S2048x64x256_S256x512_S2048x64x512_2_0_01_1_n_n : DotDims S2048x64x256 S256x512 S2048x64x512 where
  lhsContracting := [2]
  rhsContracting := [0]
  lhsNonContracting := [0, 1]
  rhsNonContracting := [1]
  lhsBatch := []
  rhsBatch := []
  wf := dot_S2048x64x256_S256x512_S2048x64x512_2_0_01_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x64x512_S512x1_S2048x64x1_2_0_01_1_n_n : DotDims S2048x64x512 S512x1 S2048x64x1 where
  lhsContracting := [2]
  rhsContracting := [0]
  lhsNonContracting := [0, 1]
  rhsNonContracting := [1]
  lhsBatch := []
  rhsBatch := []
  wf := dot_S2048x64x512_S512x1_S2048x64x1_2_0_01_1_n_n_wf

class Facts : Prop extends Facts₀ where

variable [Facts]
-- ==== Proof.HostGlue.lean ====
/-
  The kernel's program around its one grid of 16 points, read at an index.

  Before the grid four arrays are recast, row-major order kept: three vectors of 512 (one of them stored as a
  column) as rows [1, 512], and a single number as [1, 1]; after it the [2048, 64] result is recast as
  [2048, 64, 1]. A recast keeps the row-major position of every element, so each is read off its source at the
  index with the same position.

  At grid point t the first two input windows hold 128 consecutive batch rows, 128·t + r for r below 128, all
  of the other axes; the other six input windows hold their whole array at every point. A block's coordinate
  on an axis is the block index there times the block's extent plus the coordinate inside the block.
-/
import proofs.«146036_j2662879723876_2_alg».proof.Proof.Gen.KernelIdeal.Frame.Runs
import Idealize.ShloMosaic.Lib.Pipeline.Value
import Idealize.ShloMosaic.Lib.ValueIdx
import Idealize.ShloMosaic.Lib.StableHlo.Run

noncomputable section

namespace Cert.KernelIdeal.HostGlue

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (c : Dev nD)

/-! ## The input windows' blocks -/

/-- The batch row of row r of the block at grid point t: 128·t + r. -/
def rowAt (t : Fin cfg0.N) (r : Fin 128) : Fin 2048 :=
  ⟨128 * t.val + r.val, by have ht := t.isLt; have hN : cfg0.N = 16 := N_0; omega⟩

theorem rowAt_val (t : Fin cfg0.N) (r : Fin 128) : (rowAt t r).val = 128 * t.val + r.val := rfl

/-- The block indices of the eight input windows at every grid point: the first two move along the batch axis
    with the point, the rest stay at the origin. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The features' block at point t holds batch rows 128·t + r. -/
theorem blk0 (t : Fin cfg0.N) (r : Fin 128) (l : Fin 64) (d : Fin 256) :
    (iblk m c 0 t : S128x64x256.Idx → EReal) (ix3 r l d)
      = (V m c main_arg0 : S2048x64x256.Idx → EReal) (ix3 (rowAt t r) l d) := by
  show V m c main_arg0 (((cfg0.win 0).blk t).view.emb (ix3 r l d)) = V m c main_arg0 (ix3 (rowAt t r) l d)
  obtain ⟨⟨e0, e1, e2⟩, -⟩ := idx_facts t
  refine congrArg _ (funext fun a => Fin.ext ?_)
  match a with
  | ⟨0, _⟩ => show win0_0.index t (0 : Fin 3) * 128 + 1 * r.val = 128 * t.val + r.val; omega
  | ⟨1, _⟩ => show win0_0.index t (1 : Fin 3) * 64 + 1 * l.val = l.val; omega
  | ⟨2, _⟩ => show win0_0.index t (2 : Fin 3) * 256 + 1 * d.val = d.val; omega

/-- The hidden vectors' block at point t holds batch rows 128·t + r. -/
theorem blk1 (t : Fin cfg0.N) (r : Fin 128) (k : Fin 512) :
    (iblk m c 1 t : S128x512.Idx → EReal) (ix2 r k)
      = (V m c main_arg1 : S2048x512.Idx → EReal) (ix2 (rowAt t r) k) := by
  show V m c main_arg1 (((cfg0.win 1).blk t).view.emb (ix2 r k)) = V m c main_arg1 (ix2 (rowAt t r) k)
  obtain ⟨-, ⟨e0, e1⟩, -⟩ := idx_facts t
  refine congrArg _ (funext fun a => Fin.ext ?_)
  match a with
  | ⟨0, _⟩ => show win0_1.index t (0 : Fin 2) * 128 + 1 * r.val = 128 * t.val + r.val; omega
  | ⟨1, _⟩ => show win0_1.index t (1 : Fin 2) * 512 + 1 * k.val = k.val; omega

/-- The first weight matrix's block is the whole matrix at every point. -/
theorem blk2 (t : Fin cfg0.N) (y : S256x512.Idx) :
    (iblk m c 2 t : S256x512.Idx → EReal) y = (V m c main_arg2 : S256x512.Idx → EReal) y := by
  show V m c main_arg2 (((cfg0.win 2).blk t).view.emb y) = V m c main_arg2 y
  obtain ⟨-, -, ⟨e0, e1⟩, -⟩ := idx_facts t
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 512 + 1 * (y 1).val = (y 1).val; omega

/-- The first bias row's block is the whole row at every point. -/
theorem blk3 (t : Fin cfg0.N) (y : S1x512.Idx) :
    (iblk m c 3 t : S1x512.Idx → EReal) y = (V m c main_v0 : S1x512.Idx → EReal) y := by
  show V m c main_v0 (((cfg0.win 3).blk t).view.emb y) = V m c main_v0 y
  obtain ⟨-, -, -, ⟨e0, e1⟩, -⟩ := idx_facts t
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 512 + 1 * (y 1).val = (y 1).val; omega

/-- The second weight matrix's block is the whole matrix at every point. -/
theorem blk4 (t : Fin cfg0.N) (y : S512x512.Idx) :
    (iblk m c 4 t : S512x512.Idx → EReal) y = (V m c main_arg4 : S512x512.Idx → EReal) y := by
  show V m c main_arg4 (((cfg0.win 4).blk t).view.emb y) = V m c main_arg4 y
  obtain ⟨-, -, -, -, ⟨e0, e1⟩, -⟩ := idx_facts t
  refine congrArg _ (funext fun a => Fin.ext ?_)
  match a with
  | ⟨0, _⟩ => show win0_4.index t (0 : Fin 2) * 512 + 1 * (y 0).val = (y 0).val; omega
  | ⟨1, _⟩ => show win0_4.index t (1 : Fin 2) * 512 + 1 * (y 1).val = (y 1).val; omega

/-- The second bias row's block is the whole row at every point. -/
theorem blk5 (t : Fin cfg0.N) (y : S1x512.Idx) :
    (iblk m c 5 t : S1x512.Idx → EReal) y = (V m c main_v1 : S1x512.Idx → EReal) y := by
  show V m c main_v1 (((cfg0.win 5).blk t).view.emb y) = V m c main_v1 y
  obtain ⟨-, -, -, -, -, ⟨e0, e1⟩, -⟩ := idx_facts t
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 512 + 1 * (y 1).val = (y 1).val; omega

/-- The scoring row's block is the whole row at every point. -/
theorem blk6 (t : Fin cfg0.N) (y : S1x512.Idx) :
    (iblk m c 6 t : S1x512.Idx → EReal) y = (V m c main_v2 : S1x512.Idx → EReal) y := by
  show V m c main_v2 (((cfg0.win 6).blk t).view.emb y) = V m c main_v2 y
  obtain ⟨-, -, -, -, -, -, ⟨e0, e1⟩, -⟩ := idx_facts t
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 512 + 1 * (y 1).val = (y 1).val; omega

/-- The scoring bias's block is the whole [1, 1] array at every point. -/
theorem blk7 (t : Fin cfg0.N) (y : S1x1.Idx) :
    (iblk m c 7 t : S1x1.Idx → EReal) y = (V m c main_v3 : S1x1.Idx → EReal) y := by
  show V m c main_v3 (((cfg0.win 7).blk t).view.emb y) = V m c main_v3 y
  obtain ⟨-, -, -, -, -, -, -, ⟨e0, e1⟩⟩ := idx_facts t
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 1 + 1 * (y 1).val = (y 1).val; omega

/-! ## The recasts before the grid -/

/-- The first bias as a row: element (0, u) of the row is element u of the vector. -/
theorem V_v0 (u : Fin 512) :
    (V m c main_v0 : S1x512.Idx → EReal) (ix2 (0 : Fin 1) u)
      = (m ((c : Thread nD τ).loc main_arg3) : S512.Idx → EReal) (ix1 u) := by
  have h : (V m c main_v0 : S1x512.Idx → EReal)
      = shapeCast S1x512 (m ((c : Thread nD τ).loc main_arg3) : S512.Idx → EReal) shapeCasts_S512_S1x512 := by
    show StableHlo.after hostOps0 (fun b => m (c, b)) (Proc.devRef .tc main_v0) = _
    after_results
    rfl
  rw [h]
  refine shapeCast_apply _ _ _ (ix1 u) ?_
  rw [Shape.rowMajor_val_one, Shape.rowMajor_val_two]
  show u.val = 0 * 512 + u.val
  omega

/-- The second bias as a row: element (0, u) of the row is element u of the vector. -/
theorem V_v1 (u : Fin 512) :
    (V m c main_v1 : S1x512.Idx → EReal) (ix2 (0 : Fin 1) u)
      = (m ((c : Thread nD τ).loc main_arg5) : S512.Idx → EReal) (ix1 u) := by
  have h : (V m c main_v1 : S1x512.Idx → EReal)
      = shapeCast S1x512 (m ((c : Thread nD τ).loc main_arg5) : S512.Idx → EReal) shapeCasts_S512_S1x512 := by
    show StableHlo.after hostOps0 (fun b => m (c, b)) (Proc.devRef .tc main_v1) = _
    after_results
    rfl
  rw [h]
  refine shapeCast_apply _ _ _ (ix1 u) ?_
  rw [Shape.rowMajor_val_one, Shape.rowMajor_val_two]
  show u.val = 0 * 512 + u.val
  omega

/-- The scoring column as a row: element (0, u) of the row is element (u, 0) of the column. -/
theorem V_v2 (u : Fin 512) :
    (V m c main_v2 : S1x512.Idx → EReal) (ix2 (0 : Fin 1) u)
      = (m ((c : Thread nD τ).loc main_arg6) : S512x1.Idx → EReal) (ix2 u (0 : Fin 1)) := by
  have h : (V m c main_v2 : S1x512.Idx → EReal)
      = shapeCast S1x512 (m ((c : Thread nD τ).loc main_arg6) : S512x1.Idx → EReal) shapeCasts_S512x1_S1x512 := by
    show StableHlo.after hostOps0 (fun b => m (c, b)) (Proc.devRef .tc main_v2) = _
    after_results
    rfl
  rw [h]
  refine shapeCast_apply _ _ _ (ix2 u (0 : Fin 1)) ?_
  rw [Shape.rowMajor_val_two, Shape.rowMajor_val_two]
  show u.val * 1 + 0 = 0 * 512 + u.val
  omega

/-- The scoring bias as a [1, 1] array: its one element is the vector's one element. -/
theorem V_v3 :
    (V m c main_v3 : S1x1.Idx → EReal) (ix2 (0 : Fin 1) (0 : Fin 1))
      = (m ((c : Thread nD τ).loc main_arg7) : S1.Idx → EReal) (ix1 (0 : Fin 1)) := by
  have h : (V m c main_v3 : S1x1.Idx → EReal)
      = shapeCast S1x1 (m ((c : Thread nD τ).loc main_arg7) : S1.Idx → EReal) shapeCasts_S1_S1x1 := by
    show StableHlo.after hostOps0 (fun b => m (c, b)) (Proc.devRef .tc main_v3) = _
    after_results
    rfl
  rw [h]
  refine shapeCast_apply _ _ _ (ix1 (0 : Fin 1)) ?_
  rw [Shape.rowMajor_val_one, Shape.rowMajor_val_two]
  show (0 : Nat) = 0 * 1 + 0
  omega

/-! ## The recast after the grid -/

/-- The weights recast with a trailing axis of one: element (b, l, 0) is element (b, l) of the [2048, 64] result. -/
theorem tail_v5 (W : Valuation τ sig (Elt Ideal)) (b : Fin 2048) (l : Fin 64) :
    (StableHlo.after hostOps1 W (Proc.devRef .tc main_v5) : S2048x64x1.Idx → EReal) (ix3 b l (0 : Fin 1))
      = (W (Proc.devRef .tc main_v4_1) : S2048x64.Idx → EReal) (ix2 b l) := by
  have h : (StableHlo.after hostOps1 W (Proc.devRef .tc main_v5) : S2048x64x1.Idx → EReal)
      = shapeCast S2048x64x1 (W (Proc.devRef .tc main_v4_1) : S2048x64.Idx → EReal) shapeCasts_S2048x64_S2048x64x1 := by
    after_results
    rfl
  rw [h]
  refine shapeCast_apply _ _ _ (ix2 b l) ?_
  rw [Shape.rowMajor_val_two, Shape.rowMajor_val_three]
  show b.val * 64 + l.val = (b.val * 64 + l.val) * 1 + 0
  omega

/-- The recast after the grid leaves the context array as the grid left it. -/
theorem tail_v4_0 (W : Valuation τ sig (Elt Ideal)) :
    StableHlo.after hostOps1 W (Proc.devRef .tc main_v4_0) = W (Proc.devRef .tc main_v4_0) := by
  after_results

/-! ## The two results after the whole program -/

/-- After the recast that follows the grid, the context array is what the grid's last point left in it. -/
theorem after_v4_0 (dats : (p : Fin 1) → (c : Dev nD) → Pipeline.Dat τ (Elt Ideal) Unit ℕ (UR sig nD τ) ℕ (cfgs p) c) :
    Pipeline.afterTail₀ cfgs dats 0 (V0 m) [hostOps1] c main_v4_0 = (dats 0 c).arrAt 8 cfg0.N := by
  unfold Pipeline.afterTail₀
  refine (tail_v4_0 _).trans ?_
  exact Pipeline.withArrays_arr spec0 launch0.win.arr_inj c (V0 m c) _ 8

/-- After the recast that follows the grid, element (b, l, 0) of the weights is element (b, l) of what the grid's
    last point left in the [2048, 64] array. -/
theorem after_v5 (dats : (p : Fin 1) → (c : Dev nD) → Pipeline.Dat τ (Elt Ideal) Unit ℕ (UR sig nD τ) ℕ (cfgs p) c)
    (b : Fin 2048) (l : Fin 64) :
    (Pipeline.afterTail₀ cfgs dats 0 (V0 m) [hostOps1] c main_v5 : S2048x64x1.Idx → EReal) (ix3 b l (0 : Fin 1))
      = ((dats 0 c).arrAt 9 cfg0.N : S2048x64.Idx → EReal) (ix2 b l) := by
  unfold Pipeline.afterTail₀
  refine (tail_v5 _ b l).trans ?_
  exact congrFun (Pipeline.withArrays_arr spec0 launch0.win.arr_inj c (V0 m c) _ 9) (ix2 b l)

end Cert.KernelIdeal.HostGlue

end
-- ==== Proof.Spec.lean ====
/-
  Additive attention, one batch row at a time, on the extended reals.

  A batch row has 64 positions, each with 256 features `f l d`, and one hidden vector `h k` of length 512.
  With weights `W1` (256 × 512), `W2` (512 × 512), `V` (512) and biases `b1`, `b2` (512), `bV`:

    projF l u = (∑ d, f l d · W1 d u) + b1 u          the features' projection
    projH u   = (∑ k, h k · W2 k u) + b2 u            the hidden vector's projection
    logit l   = (∑ u, tanh (projF l u + projH u) · V u) + bV
    weight l  = exp (logit l − M) / ∑ l', exp (logit l' − M),   M the maximum of the logits (from −∞)
    context d = ∑ l, f l d · weight l

  The maximum is the fold of `max` over the 64 positions starting from the value of the word 0xFF800000,
  kept as that word: both programs start their maximum there, so it is never evaluated.
  The result arrays: the weights as a [2048, 64, 1] array and the contexts as a [2048, 256] array, each
  batch row computed from that row of the two data arrays.
-/
import Idealize.ShloMosaic.PureOps.Ideal
import Idealize.ShloMosaic.Lib.ValueIdx
import Mathlib.Data.Finset.Fold

noncomputable section

open scoped BigOperators

namespace Cert.Attention

open Idealize.ShloMosaic Idealize.ShloMosaic.ValueIdx

/-- The weights and biases, as functions of coordinates. -/
structure Params where
  W1 : Fin 256 → Fin 512 → EReal
  b1 : Fin 512 → EReal
  W2 : Fin 512 → Fin 512 → EReal
  b2 : Fin 512 → EReal
  V : Fin 512 → EReal
  bV : EReal

/-- The hidden vector's projection. -/
def projH (P : Params) (h : Fin 512 → EReal) (u : Fin 512) : EReal :=
  (∑ k : Fin 512, h k * P.W2 k u) + P.b2 u

/-- The features' projection at one position. -/
def projF (P : Params) (f : Fin 64 → Fin 256 → EReal) (l : Fin 64) (u : Fin 512) : EReal :=
  (∑ d : Fin 256, f l d * P.W1 d u) + P.b1 u

/-- A position's logit, given the hidden vector's projection `ph`. -/
def logitOf (P : Params) (f : Fin 64 → Fin 256 → EReal) (ph : Fin 512 → EReal) (l : Fin 64) : EReal :=
  (∑ u : Fin 512, Ideal.tanh (projF P f l u + ph u) * P.V u) + P.bV

/-- A position's logit. -/
def logit (P : Params) (f : Fin 64 → Fin 256 → EReal) (h : Fin 512 → EReal) (l : Fin 64) : EReal :=
  logitOf P f (projH P h) l

/-- The maximum of 64 values, folded from −∞ (the word 0xFF800000). -/
def rowMax (x : Fin 64 → EReal) : EReal :=
  (Finset.univ : Finset (Fin 64)).fold max (Ideal.ofBits .f32 0xFF800000#32) x

/-- The exponential of a value less the row's maximum. -/
def expo (x : Fin 64 → EReal) (l : Fin 64) : EReal := Ideal.exp (x l - rowMax x)

/-- The sum of the row's exponentials. -/
def expoSum (x : Fin 64 → EReal) : EReal := ∑ l : Fin 64, expo x l

/-- The softmax weight of a position among the row's 64. -/
def weight (x : Fin 64 → EReal) (l : Fin 64) : EReal := Ideal.div (expo x l) (expoSum x)

/-- The attention weight of a position. -/
def attnRow (P : Params) (f : Fin 64 → Fin 256 → EReal) (h : Fin 512 → EReal) (l : Fin 64) : EReal :=
  weight (logit P f h) l

/-- The weighted sum of the features, given the weights. -/
def ctxOf (f : Fin 64 → Fin 256 → EReal) (w : Fin 64 → EReal) (d : Fin 256) : EReal :=
  ∑ l : Fin 64, f l d * w l

/-- The context vector of a batch row. -/
def ctxRow (P : Params) (f : Fin 64 → Fin 256 → EReal) (h : Fin 512 → EReal) (d : Fin 256) : EReal :=
  ctxOf f (attnRow P f h) d

/-! ## The arrays -/

/-- The parameters read off the six weight arrays. -/
def paramsOf (A2 : (⟨2, ![256, 512]⟩ : Shape).Idx → EReal) (A3 : (⟨1, ![512]⟩ : Shape).Idx → EReal)
    (A4 : (⟨2, ![512, 512]⟩ : Shape).Idx → EReal) (A5 : (⟨1, ![512]⟩ : Shape).Idx → EReal)
    (A6 : (⟨2, ![512, 1]⟩ : Shape).Idx → EReal) (A7 : (⟨1, ![1]⟩ : Shape).Idx → EReal) : Params where
  W1 d u := A2 (ix2 d u)
  b1 u := A3 (ix1 u)
  W2 k u := A4 (ix2 k u)
  b2 u := A5 (ix1 u)
  V u := A6 (ix2 u (0 : Fin 1))
  bV := A7 (ix1 (0 : Fin 1))

/-- Batch row `b` of the feature array. -/
def featRow (A0 : (⟨3, ![2048, 64, 256]⟩ : Shape).Idx → EReal) (b : Fin 2048) : Fin 64 → Fin 256 → EReal :=
  fun l d => A0 (ix3 b l d)

/-- Batch row `b` of the hidden array. -/
def hidRow (A1 : (⟨2, ![2048, 512]⟩ : Shape).Idx → EReal) (b : Fin 2048) : Fin 512 → EReal :=
  fun k => A1 (ix2 b k)

/-- The attention weights as a [2048, 64, 1] array. -/
def attnArr (A0 : (⟨3, ![2048, 64, 256]⟩ : Shape).Idx → EReal) (A1 : (⟨2, ![2048, 512]⟩ : Shape).Idx → EReal)
    (P : Params) : (⟨3, ![2048, 64, 1]⟩ : Shape).Idx → EReal :=
  fun i => attnRow P (featRow A0 (i 0)) (hidRow A1 (i 0)) (i 1)

/-- The context vectors as a [2048, 256] array. -/
def ctxArr (A0 : (⟨3, ![2048, 64, 256]⟩ : Shape).Idx → EReal) (A1 : (⟨2, ![2048, 512]⟩ : Shape).Idx → EReal)
    (P : Params) : (⟨2, ![2048, 256]⟩ : Shape).Idx → EReal :=
  fun i => ctxRow P (featRow A0 (i 0)) (hidRow A1 (i 0)) (i 1)

/-- A maximum taken again against its own starting value is itself. -/
theorem max_init_rowMax (x : Fin 64 → EReal) :
    max (Ideal.ofBits .f32 0xFF800000#32) (rowMax x) = rowMax x :=
  max_eq_right ((Finset.le_fold_max _).mpr (Or.inl le_rfl))

end Cert.Attention

end
-- ==== Proof.Payloads.lean ====
/-
  The six pure payloads of the attention kernel's body, each read at one index.

  Every payload is one term over the blocks loaded before its store. Read at an index, on the extended
  reals, each is a closed formula in the blocks' elements:

    payload 1 (r, l)   the quotient of two blocks, element by element
    payload 2 (r, d)   ∑ l, f (r, l, d) · w (r, l)                      a weighted sum over the 64 positions
    payload 3 (r, u)   (∑ k, h (r, k) · W (k, u)) + b (0, u)            a row of the hidden projection
    payload 4 (r, l)   (∑ u, tanh ((∑ d, f (r, l, d) · W (d, u)) + b (0, u) + p (r, u)) · V (0, u)) + c (0, 0)
    payload 5 (r, l)   exp (x (r, l) − the maximum of row r)
    payload 6 (r, l)   the sum over row r of payload 5

  A format change to sixteen bits is the identity on the extended reals, a product into the zero splat is the
  plain sum over the contraction coordinate, a reshape keeps the row-major position, and a broadcast reads the
  operand's unit axes at 0.
-/
import proofs.«146036_j2662879723876_2_alg».proof.Proof.Gen.KernelIdeal.Skeleton
import proofs.«146036_j2662879723876_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

variable {α : Type}

/-! ## Payload 1: the quotient -/

/-- The quotient of two blocks at an index is the quotient of the elements. -/
theorem pay1_apply (v28 v31 : FVec Ideal S128x64 .f32) (i : S128x64.Idx) :
    k0_pay1 (F := Ideal) v28 v31 i = Ideal.div (v28 i) (v31 i) := rfl

/-! ## Payload 2: the weighted sum over the positions -/

/-- A trailing unit axis added and then broadcast: `[a, b] → [a, b, 1] → [a, b, c]` reads `(r, l)` at every
    `(r, l, d)`. -/
theorem bcastLast3_apply {a b c : ℕ} (x : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (r : Fin a) (l : Fin b) (d : Fin c) :
    broadcastTo ⟨3, ![a, b, c]⟩ (shapeCast ⟨3, ![a, b, 1]⟩ x h1) h2 (ix3 r l d) = x (ix2 r l) := by
  refine (broadcastTo_apply _ h2 (ix3 r l d) (ix3 r l (0 : Fin 1)) fun ax => ?_).trans ?_
  · match ax with
    | ⟨0, _⟩ =>
      show r.val = if a = 1 then 0 else r.val
      split
      · have := r.isLt; omega
      · rfl
    | ⟨1, _⟩ =>
      show l.val = if b = 1 then 0 else l.val
      split
      · have := l.isLt; omega
      · rfl
    | ⟨2, _⟩ => rfl
  · exact shapeCast_apply x h1 _ _ (by
      rw [Shape.rowMajor_val_three, Shape.rowMajor_val_two]
      show r.val * b + l.val = (r.val * b + l.val) * 1 + 0
      omega)

/-- Payload 2 at `(r, d)`: the features of batch row `r` at feature `d`, weighted and summed over the positions. -/
theorem pay2_apply (v40 : Vec Ideal S16x64x256 .f32) (v42 : Vec Ideal S16x64 .f32) (r : Fin 16) (d : Fin 256) :
    k0_pay2 (F := Ideal) v40 v42 (ix2 r d) = ∑ l : Fin 64, v40 (ix3 r l d) * v42 (ix2 r l) := by
  unfold k0_pay2
  refine (Ideal.multiReduction_add_single _ _ _ _ _ _).trans ?_
  refine Finset.sum_congr rfl fun (l : Fin 64) _ => ?_
  have hl : reduces_S16x64x256_S16x256.lift (ix2 r d) l = ix3 r l d := funext fun ax => Fin.ext (by
    match ax with | ⟨0, _⟩ => rfl | ⟨1, _⟩ => rfl | ⟨2, _⟩ => rfl)
  rw [hl, mulf_apply, shapeCast_self]
  exact congrArg (v40 (ix3 r l d) * ·) (bcastLast3_apply v42 _ _ r l d)

/-! ## Payloads 5 and 6: the exponentials less the row maximum, and their row sum -/

/-- An exponential at an index is the exponential of the element. -/
theorem exp_apply {s : Shape} {φ : FTy} (a : FVec Ideal s φ) (i : s.Idx) : exp a i = Ideal.exp (a i) := rfl

/-- A hyperbolic tangent at an index is that of the element. -/
theorem tanh_apply {s : Shape} {φ : FTy} (a : FVec Ideal s φ) (i : s.Idx) : tanh a i = Ideal.tanh (a i) := rfl

/-- A reduced column kept as a unit axis and broadcast back: `[a] → [a, 1] → [a, b]` reads `r` at every `(r, l)`. -/
theorem bcastLast2_apply {a b : ℕ} (x : (⟨1, ![a]⟩ : Shape).Idx → α)
    (h1 : (⟨1, ![a]⟩ : Shape).ShapeCasts ⟨2, ![a, 1]⟩)
    (h2 : (⟨2, ![a, 1]⟩ : Shape).Broadcasts ⟨2, ![a, b]⟩) (r : Fin a) (l : Fin b) :
    broadcastTo ⟨2, ![a, b]⟩ (shapeCast ⟨2, ![a, 1]⟩ x h1) h2 (ix2 r l) = x (ix1 r) := by
  refine (broadcastTo_apply _ h2 (ix2 r l) (ix2 r (0 : Fin 1)) fun ax => ?_).trans ?_
  · match ax with
    | ⟨0, _⟩ =>
      show r.val = if a = 1 then 0 else r.val
      split
      · have := r.isLt; omega
      · rfl
    | ⟨1, _⟩ => rfl
  · exact shapeCast_apply x h1 _ _ (by
      rw [Shape.rowMajor_val_two, Shape.rowMajor_val_one]
      show r.val = r.val * 1 + 0
      omega)

/-- The index over `r` with position `l` inserted on the reduced axis is `(r, l)`. -/
theorem lift_row (r : Fin 128) (l : Fin 64) : reduces_S128x64_S128.lift (ix1 r) l = ix2 r l :=
  funext fun ax => Fin.ext (by match ax with | ⟨0, _⟩ => rfl | ⟨1, _⟩ => rfl)

/-- The maximum along the positions of row `r` is the fold of `max` over that row from the value of the word
    0xFF800000. -/
theorem rowMax_read (v23 : Vec Ideal S128x64 .f32) (r : Fin 128) :
    multiReduction (F := Ideal) .maximumf [1] S128 v23 0xFF800000#32 reduces_S128x64_S128 (.inl rfl) rfl (ix1 r)
      = Cert.Attention.rowMax (fun l' => v23 (ix2 r l')) := by
  refine (Ideal.multiReduction_maximumf_single _ _ _ _ _ _).trans ?_
  have hrow : (v23 ∘ reduces_S128x64_S128.lift (ix1 r)) = fun l' : Fin 64 => v23 (ix2 r l') :=
    funext fun l' => congrArg v23 (lift_row r l')
  exact congrArg (fun f : Fin 64 → EReal =>
    (Finset.univ : Finset (Fin 64)).fold max (Ideal.ofBits .f32 0xFF800000#32) f) hrow

/-- Payload 5 at `(r, l)`: the exponential of the element less the maximum of row `r`. -/
theorem pay5_apply (v23 : Vec Ideal S128x64 .f32) (r : Fin 128) (l : Fin 64) :
    k0_pay5 (F := Ideal) v23 (ix2 r l) = Cert.Attention.expo (fun l' => v23 (ix2 r l')) l := by
  unfold k0_pay5
  refine (exp_apply _ _).trans ?_
  rw [subf_apply, bcastLast2_apply, rowMax_read]
  rfl

/-- Payload 6 at `(r, l)`: the sum of row `r`'s exponentials, the same at every position `l`. -/
theorem pay6_apply (v23 : Vec Ideal S128x64 .f32) (r : Fin 128) (l : Fin 64) :
    k0_pay6 (F := Ideal) v23 (ix2 r l) = Cert.Attention.expoSum (fun l' => v23 (ix2 r l')) := by
  unfold k0_pay6
  refine (bcastLast2_apply _ _ _ r l).trans ?_
  refine (Ideal.multiReduction_add_single _ _ _ _ _ _).trans ?_
  unfold Cert.Attention.expoSum
  refine Finset.sum_congr rfl fun (l' : Fin 64) _ => ?_
  rw [lift_row]
  exact pay5_apply v23 r l'

/-! ## Payload 3: a row of the hidden projection -/

theorem matmulH_lhs0 (j : S128x512.Idx) (q : dot_S128x512_S512x512_S128x512_1_0_0_1_n_n.contr.Idx) : (dot_S128x512_S512x512_S128x512_1_0_0_1_n_n.lhsIdx j q 0).val = (j 0).val := by
  unfold DotDims.lhsIdx
  rw [dif_neg (show ¬(0 : Fin S128x512.rank) ∈ dot_S128x512_S512x512_S128x512_1_0_0_1_n_n.lhsBatch by decide),
    dif_pos (show (0 : Fin S128x512.rank) ∈ dot_S128x512_S512x512_S128x512_1_0_0_1_n_n.lhsNonContracting by decide)]
  rfl
theorem matmulH_lhs1 (j : S128x512.Idx) (q : dot_S128x512_S512x512_S128x512_1_0_0_1_n_n.contr.Idx) : (dot_S128x512_S512x512_S128x512_1_0_0_1_n_n.lhsIdx j q 1).val = (q ⟨0, by decide⟩).val :=
  dot_S128x512_S512x512_S128x512_1_0_0_1_n_n.lhsIdx_val_of_single rfl j q
theorem matmulH_rhs0 (j : S128x512.Idx) (q : dot_S128x512_S512x512_S128x512_1_0_0_1_n_n.contr.Idx) : (dot_S128x512_S512x512_S128x512_1_0_0_1_n_n.rhsIdx j q 0).val = (q ⟨0, by decide⟩).val :=
  dot_S128x512_S512x512_S128x512_1_0_0_1_n_n.rhsIdx_val_of_single rfl j q
theorem matmulH_rhs1 (j : S128x512.Idx) (q : dot_S128x512_S512x512_S128x512_1_0_0_1_n_n.contr.Idx) : (dot_S128x512_S512x512_S128x512_1_0_0_1_n_n.rhsIdx j q 1).val = (j 1).val := by
  unfold DotDims.rhsIdx
  rw [dif_neg (show ¬(1 : Fin S512x512.rank) ∈ dot_S128x512_S512x512_S128x512_1_0_0_1_n_n.rhsBatch by decide),
    dif_pos (show (1 : Fin S512x512.rank) ∈ dot_S128x512_S512x512_S128x512_1_0_0_1_n_n.rhsNonContracting by decide)]
  rfl

/-- A `[128, 512] × [512, 512]` product into the zero splat, at `(r, u)`: the sum over the contraction coordinate. -/
theorem matmulH_apply {φ₁ φ₂ : FTy} (A : FVec Ideal S128x512 φ₁) (B : FVec Ideal S512x512 φ₂) (r : Fin 128) (u : Fin 512) :
    matmul dot_S128x512_S512x512_S128x512_1_0_0_1_n_n none A B (constant S128x512 .f32 0x00000000#32) (ix2 r u)
      = ∑ k : Fin 512, A (ix2 r k) * B (ix2 k u) := by
  simp only [matmul]
  rw [Ideal.matmul_constant_zero_apply, ← Equiv.sum_comp (contrEquiv1 dot_S128x512_S512x512_S128x512_1_0_0_1_n_n 512 rfl rfl).symm]
  refine Finset.sum_congr rfl fun k _ => ?_
  have hk := contrEquiv1_symm_val dot_S128x512_S512x512_S128x512_1_0_0_1_n_n 512 rfl rfl k
  have el : dot_S128x512_S512x512_S128x512_1_0_0_1_n_n.lhsIdx (ix2 r u) ((contrEquiv1 dot_S128x512_S512x512_S128x512_1_0_0_1_n_n 512 rfl rfl).symm k) = ix2 r k :=
    funext fun a => Fin.ext (by
      match a with
      | ⟨0, _⟩ => exact matmulH_lhs0 _ _
      | ⟨1, _⟩ => exact (matmulH_lhs1 _ _).trans hk)
  have er : dot_S128x512_S512x512_S128x512_1_0_0_1_n_n.rhsIdx (ix2 r u) ((contrEquiv1 dot_S128x512_S512x512_S128x512_1_0_0_1_n_n 512 rfl rfl).symm k) = ix2 k u :=
    funext fun a => Fin.ext (by
      match a with
      | ⟨0, _⟩ => exact (matmulH_rhs0 _ _).trans hk
      | ⟨1, _⟩ => exact matmulH_rhs1 _ _)
  rw [el, er]

/-- Payload 3 at `(r, u)`: the hidden row `r` against column `u` of the weights, plus the bias at `u`. -/
theorem pay3_apply (v0 : Vec Ideal S128x512 .f32) (v2 : Vec Ideal S512x512 .f32) (v5 : Vec Ideal S1x512 .f32)
    (r : Fin 128) (u : Fin 512) :
    k0_pay3 (F := Ideal) v0 v2 v5 (ix2 r u)
      = (∑ k : Fin 512, v0 (ix2 r k) * v2 (ix2 k u)) + v5 (ix2 (0 : Fin 1) u) := by
  unfold k0_pay3
  refine (congrFun (shapeCast_self _ _) _).trans ?_
  refine (addf_apply _ _ _).trans ?_
  rw [matmulH_apply, shapeCast_self, broadcastTo_1b_ab_apply]
  rfl

/-! ## Payload 4: the logits of sixteen batch rows -/

theorem matmulF_lhs0 (j : S1024x512.Idx) (q : dot_S1024x256_S256x512_S1024x512_1_0_0_1_n_n.contr.Idx) : (dot_S1024x256_S256x512_S1024x512_1_0_0_1_n_n.lhsIdx j q 0).val = (j 0).val := by
  unfold DotDims.lhsIdx
  rw [dif_neg (show ¬(0 : Fin S1024x256.rank) ∈ dot_S1024x256_S256x512_S1024x512_1_0_0_1_n_n.lhsBatch by decide),
    dif_pos (show (0 : Fin S1024x256.rank) ∈ dot_S1024x256_S256x512_S1024x512_1_0_0_1_n_n.lhsNonContracting by decide)]
  rfl
theorem matmulF_lhs1 (j : S1024x512.Idx) (q : dot_S1024x256_S256x512_S1024x512_1_0_0_1_n_n.contr.Idx) : (dot_S1024x256_S256x512_S1024x512_1_0_0_1_n_n.lhsIdx j q 1).val = (q ⟨0, by decide⟩).val :=
  dot_S1024x256_S256x512_S1024x512_1_0_0_1_n_n.lhsIdx_val_of_single rfl j q
theorem matmulF_rhs0 (j : S1024x512.Idx) (q : dot_S1024x256_S256x512_S1024x512_1_0_0_1_n_n.contr.Idx) : (dot_S1024x256_S256x512_S1024x512_1_0_0_1_n_n.rhsIdx j q 0).val = (q ⟨0, by decide⟩).val :=
  dot_S1024x256_S256x512_S1024x512_1_0_0_1_n_n.rhsIdx_val_of_single rfl j q
theorem matmulF_rhs1 (j : S1024x512.Idx) (q : dot_S1024x256_S256x512_S1024x512_1_0_0_1_n_n.contr.Idx) : (dot_S1024x256_S256x512_S1024x512_1_0_0_1_n_n.rhsIdx j q 1).val = (j 1).val := by
  unfold DotDims.rhsIdx
  rw [dif_neg (show ¬(1 : Fin S256x512.rank) ∈ dot_S1024x256_S256x512_S1024x512_1_0_0_1_n_n.rhsBatch by decide),
    dif_pos (show (1 : Fin S256x512.rank) ∈ dot_S1024x256_S256x512_S1024x512_1_0_0_1_n_n.rhsNonContracting by decide)]
  rfl

/-- A `[1024, 256] × [256, 512]` product into the zero splat, at `(m, u)`: the sum over the contraction coordinate. -/
theorem matmulF_apply {φ₁ φ₂ : FTy} (A : FVec Ideal S1024x256 φ₁) (B : FVec Ideal S256x512 φ₂) (r : Fin 1024) (u : Fin 512) :
    matmul dot_S1024x256_S256x512_S1024x512_1_0_0_1_n_n none A B (constant S1024x512 .f32 0x00000000#32) (ix2 r u)
      = ∑ k : Fin 256, A (ix2 r k) * B (ix2 k u) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 r u) ((contrEquiv1 dot_S1024x256_S256x512_S1024x512_1_0_0_1_n_n 256 rfl rfl).symm k) = ix2 r k :=
    funext fun a => Fin.ext (by
      match a with
      | ⟨0, _⟩ => exact matmulF_lhs0 _ _
      | ⟨1, _⟩ => exact (matmulF_lhs1 _ _).trans hk)
  have er : dot_S1024x256_S256x512_S1024x512_1_0_0_1_n_n.rhsIdx (ix2 r u) ((contrEquiv1 dot_S1024x256_S256x512_S1024x512_1_0_0_1_n_n 256 rfl rfl).symm k) = ix2 k u :=
    funext fun a => Fin.ext (by
      match a with
      | ⟨0, _⟩ => exact (matmulF_rhs0 _ _).trans hk
      | ⟨1, _⟩ => exact matmulF_rhs1 _ _)
  rw [el, er]

/-- Sixteen rows of 64 positions laid out as 1024 rows: `[16, 64, c] → [1024, c]` reads `(r, l, d)` at row
    `64 r + l`. -/
theorem flatten_apply {c : ℕ} (y : (⟨3, ![16, 64, c]⟩ : Shape).Idx → α)
    (h : (⟨3, ![16, 64, c]⟩ : Shape).ShapeCasts ⟨2, ![1024, c]⟩) (r : Fin 16) (l : Fin 64) (d : Fin c)
    (m : Fin 1024) (hm : m.val = 64 * r.val + l.val) :
    shapeCast ⟨2, ![1024, c]⟩ y h (ix2 m d) = y (ix3 r l d) :=
  shapeCast_apply y h _ _ (by
    rw [Shape.rowMajor_val_three, Shape.rowMajor_val_two]
    show (r.val * 64 + l.val) * c + d.val = m.val * c + d.val
    rw [hm, Nat.mul_comm 64 r.val])

/-- … and back: `[1024, c] → [16, 64, c]` reads row `64 r + l` at `(r, l, u)`. -/
theorem unflatten_apply {c : ℕ} (x : (⟨2, ![1024, c]⟩ : Shape).Idx → α)
    (h : (⟨2, ![1024, c]⟩ : Shape).ShapeCasts ⟨3, ![16, 64, c]⟩) (r : Fin 16) (l : Fin 64) (u : Fin c)
    (m : Fin 1024) (hm : m.val = 64 * r.val + l.val) :
    shapeCast ⟨3, ![16, 64, c]⟩ x h (ix3 r l u) = x (ix2 m u) :=
  shapeCast_apply x h _ _ (by
    rw [Shape.rowMajor_val_three, Shape.rowMajor_val_two]
    show m.val * c + u.val = (r.val * 64 + l.val) * c + u.val
    rw [hm, Nat.mul_comm 64 r.val])

/-- One value per batch row and lane, repeated along the positions: `[a, c] → [a, 1, c] → [a, b, c]` reads
    `(r, u)` at every `(r, l, u)`. -/
theorem bcastMid3_apply {a b c : ℕ} (x : (⟨2, ![a, c]⟩ : Shape).Idx → α)
    (h1 : (⟨2, ![a, c]⟩ : Shape).ShapeCasts ⟨3, ![a, 1, c]⟩)
    (h2 : (⟨3, ![a, 1, c]⟩ : Shape).Broadcasts ⟨3, ![a, b, c]⟩) (r : Fin a) (l : Fin b) (u : Fin c) :
    broadcastTo ⟨3, ![a, b, c]⟩ (shapeCast ⟨3, ![a, 1, c]⟩ x h1) h2 (ix3 r l u) = x (ix2 r u) := by
  refine (broadcastTo_apply _ h2 (ix3 r l u) (ix3 r (0 : Fin 1) u) fun ax => ?_).trans ?_
  · match ax with
    | ⟨0, _⟩ =>
      show r.val = if a = 1 then 0 else r.val
      split
      · have := r.isLt; omega
      · rfl
    | ⟨1, _⟩ => rfl
    | ⟨2, _⟩ =>
      show u.val = if c = 1 then 0 else u.val
      split
      · have := u.isLt; omega
      · rfl
  · exact shapeCast_apply x h1 _ _ (by
      rw [Shape.rowMajor_val_three, Shape.rowMajor_val_two]
      show r.val * c + u.val = (r.val * 1 + 0) * c + u.val
      rw [Nat.mul_one, Nat.add_zero])

/-- One value per lane, repeated along the batch rows and the positions: `[1, c] → [1, 1, c] → [a, b, c]` reads
    `(0, u)` at every `(r, l, u)`. -/
theorem bcastRow3_apply {a b c : ℕ} (x : (⟨2, ![1, c]⟩ : Shape).Idx → α)
    (h1 : (⟨2, ![1, c]⟩ : Shape).ShapeCasts ⟨3, ![1, 1, c]⟩)
    (h2 : (⟨3, ![1, 1, c]⟩ : Shape).Broadcasts ⟨3, ![a, b, c]⟩) (r : Fin a) (l : Fin b) (u : Fin c) :
    broadcastTo ⟨3, ![a, b, c]⟩ (shapeCast ⟨3, ![1, 1, c]⟩ x h1) h2 (ix3 r l u) = x (ix2 (0 : Fin 1) u) := by
  refine (broadcastTo_apply _ h2 (ix3 r l u) (ix3 (0 : Fin 1) (0 : Fin 1) u) fun ax => ?_).trans ?_
  · match ax with
    | ⟨0, _⟩ => rfl
    | ⟨1, _⟩ => rfl
    | ⟨2, _⟩ =>
      show u.val = if c = 1 then 0 else u.val
      split
      · have := u.isLt; omega
      · rfl
  · exact shapeCast_apply x h1 _ _ (by
      rw [Shape.rowMajor_val_three, Shape.rowMajor_val_two]
      show 0 * c + u.val = (0 * 1 + 0) * c + u.val
      rfl)

/-- The one element of a `[1, 1]` block, extracted at position `(0, 0)`. -/
theorem extract00_apply (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) :=
  congrArg x (funext fun a => Fin.ext (by match a with | ⟨0, _⟩ => rfl | ⟨1, _⟩ => rfl))

/-- The index over `(r, l)` with lane `u` inserted on the reduced axis is `(r, l, u)`. -/
theorem lift_lane (r : Fin 16) (l : Fin 64) (u : Fin 512) : reduces_S16x64x512_S16x64.lift (ix2 r l) u = ix3 r l u :=
  funext fun ax => Fin.ext (by match ax with | ⟨0, _⟩ => rfl | ⟨1, _⟩ => rfl | ⟨2, _⟩ => rfl)

/-- Payload 4 at `(r, l)`: the logit of position `l` of batch row `r` — over the lanes, the hyperbolic tangent of
    the features' projection plus the hidden projection's row, weighted by `V`, plus the bias. -/
theorem pay4_apply (v12 : Vec Ideal S256x512 .f32) (v14 v16 : Vec Ideal S1x512 .f32) (v19 : Vec Ideal S1x1 .f32)
    (v40 : Vec Ideal S16x64x256 .f32) (v48 : Vec Ideal S16x512 .f32) (r : Fin 16) (l : Fin 64) :
    k0_pay4 (F := Ideal) v12 v14 v16 v19 v40 v48 (ix2 r l)
      = (∑ u : Fin 512, Ideal.tanh (((∑ d : Fin 256, v40 (ix3 r l d) * v12 (ix2 d u)) + v14 (ix2 (0 : Fin 1) u))
            + v48 (ix2 r u)) * v16 (ix2 (0 : Fin 1) u)) + v19 (ix2 (0 : Fin 1) (0 : Fin 1)) := by
  have hm : (⟨64 * r.val + l.val, by have := r.isLt; have := l.isLt; omega⟩ : Fin 1024).val = 64 * r.val + l.val := rfl
  unfold k0_pay4
  refine (congrFun (shapeCast_self _ _) _).trans ?_
  refine (addf_apply _ _ _).trans (congrArg₂ (· + ·) ?_ ?_)
  · refine (Ideal.multiReduction_add_single _ _ _ _ _ _).trans ?_
    refine Finset.sum_congr rfl fun (u : Fin 512) _ => ?_
    rw [lift_lane]
    refine (mulf_apply _ _ _).trans (congrArg₂ (· * ·) ?_ ?_)
    · refine (tanh_apply _ _).trans (congrArg Ideal.tanh ?_)
      refine (addf_apply _ _ _).trans (congrArg₂ (· + ·) ?_ ?_)
      · refine (unflatten_apply _ _ r l u _ hm).trans ?_
        refine (addf_apply _ _ _).trans (congrArg₂ (· + ·) ?_ ?_)
        · refine (matmulF_apply _ _ _ u).trans (Finset.sum_congr rfl fun d _ => ?_)
          rw [flatten_apply _ _ r l d _ hm]
          rfl
        · rw [shapeCast_self]
          exact broadcastTo_1b_ab_apply _ _ _ u
      · exact bcastMid3_apply v48 _ _ r l u
    · rw [shapeCast_self]
      exact bcastRow3_apply v16 _ _ r l u
  · rw [shapeCast_self]
    exact extract00_apply v19 _

end Cert.KernelIdeal.Payloads

end
-- ==== Proof.LoopPieces.lean ====
/-
  The two counted loops of the attention kernel's body, trip by trip.

  Trip k of the first loop stores, into rows 16k … 16k+15 of a [128, 64] scratch block, the logits of those sixteen
  batch rows; trip k of the second stores, into rows 16k … 16k+15 of the [128, 256] output block, their context
  vectors. Each trip writes ONE piece — a store, at the trip's offset, of the payload of the blocks loaded at the
  trip's offset — and every piece of either loop is the restriction to its rows of one function of the whole
  block's index: the logits, or the contexts, of all 128 batch rows.
-/
import proofs.«146036_j2662879723876_2_alg».proof.Proof.Gen.KernelIdeal.Loops
import proofs.«146036_j2662879723876_2_alg».proof.Proof.Payloads
import Idealize.ShloMosaic.Lib.Pipeline.Value
import Idealize.ShloMosaic.Lib.Tactic
import Idealize.ShloMosaic.Lib.ValueIdx

noncomputable section

open scoped BigOperators

namespace Cert.KernelIdeal.LoopPieces

open Cert.KernelIdeal Cert.KernelIdeal.Gen Idealize.ShloMosaic Idealize.ShloMosaic.ValueIdx Idealize.ShloMosaic.Tactic

/-! ## The one piece of each trip -/

section AnyInstance
variable {F : FTy → Type} [FloatOps F]

/-- Trip `k` of the first loop writes one piece: at rows `16 k …` of the scratch block, the logits' payload of the
    feature rows and the hidden-projection rows loaded at the same offset. -/
theorem tripL_t1_eq (𝒱 : Variants) (c : Dev nD) (bd : Option 𝒱.V) (i : grid0.Coords) (arg1 : Memref sig .tc .vmem S128x64x256 .f32) (harg1 : arg1.IsWhole) (arg2 : Memref sig .tc .vmem S128x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S128x256 .f32) (harg9 : arg9.IsWhole) (arg10 : Memref sig .tc .vmem S128x64 .f32) (harg10 : arg10.IsWhole) (arg11 : Memref sig .tc .vmem S128x512 .f32) (harg11 : arg11.IsWhole) (arg12 : Memref sig .tc .vmem S128x64 .f32) (harg12 : arg12.IsWhole)
    (v12 : Vec F S256x512 .f32) (v14 v16 : Vec F S1x512 .f32) (v19 : Vec F S1x1 .f32)
    (X1 : BufTy.Contents (Elt F) arg1.view.ty) (X11 : BufTy.Contents (Elt F) arg11.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 v12 v14 v16 v19 X1 X11 k
      = [(⟨Rect.unit (s := S128x64) (k0_off3 k) S16x64.size (k0_off3_inb k),
          k0_pay4 v12 v14 v16 v19
            (View.readAt (Elt F) arg1.view (Rect.unit (s := S128x64x256) (k0_off1 k) S16x64x256.size (k0_off1_inb k)).toLoadRect X1)
            (View.readAt (Elt F) arg11.view (Rect.unit (s := S128x512) (k0_off2 k) S16x512.size (k0_off2_inb k)).toLoadRect X11)⟩ :
          View.Piece (Elt F) S128x64 .f32)] := by
  unfold tripL_k0_t1 trip_k0_t1
  dsimp only

/-- Trip `k` of the second loop writes one piece: at rows `16 k …` of the output block, the weighted-sum payload of
    the feature rows and the weight rows loaded at the same offset. -/
theorem tripL_t2_eq (𝒱 : Variants) (c : Dev nD) (bd : Option 𝒱.V) (i : grid0.Coords) (arg1 : Memref sig .tc .vmem S128x64x256 .f32) (harg1 : arg1.IsWhole) (arg2 : Memref sig .tc .vmem S128x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S128x256 .f32) (harg9 : arg9.IsWhole) (arg10 : Memref sig .tc .vmem S128x64 .f32) (harg10 : arg10.IsWhole) (arg11 : Memref sig .tc .vmem S128x512 .f32) (harg11 : arg11.IsWhole) (arg12 : Memref sig .tc .vmem S128x64 .f32) (harg12 : arg12.IsWhole)
    (X1 : BufTy.Contents (Elt F) arg1.view.ty) (X10 : BufTy.Contents (Elt F) arg10.view.ty) (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 X1 X10 k
      = [(⟨Rect.unit (s := S128x256) (k0_off6 k) S16x256.size (k0_off6_inb k),
          k0_pay2
            (View.readAt (Elt F) arg1.view (Rect.unit (s := S128x64x256) (k0_off4 k) S16x64x256.size (k0_off4_inb k)).toLoadRect X1)
            (View.readAt (Elt F) arg10.view (Rect.unit (s := S128x64) (k0_off5 k) S16x64.size (k0_off5_inb k)).toLoadRect X10)⟩ :
          View.Piece (Elt F) S128x256 .f32)] := by
  unfold tripL_k0_t2 trip_k0_t2
  dsimp only

end AnyInstance

/-! ## Every piece is the restriction of one function of the block's index -/

/-- The logits of all 128 batch rows of a tile, as a function of the scratch block's index `(row, position)`: from the
    feature block `A1` and the hidden projection's block `A11`. -/
def logitsOf (v12 : Vec Ideal S256x512 .f32) (v14 v16 : Vec Ideal S1x512 .f32) (v19 : Vec Ideal S1x1 .f32)
    (A1 : S128x64x256.Idx → EReal) (A11 : S128x512.Idx → EReal) : S128x64.Idx → EReal :=
  fun j => (∑ u : Fin 512, Ideal.tanh (((∑ d : Fin 256, A1 (ix3 (j 0) (j 1) d) * v12 (ix2 d u)) + v14 (ix2 (0 : Fin 1) u))
      + A11 (ix2 (j 0) u)) * v16 (ix2 (0 : Fin 1) u)) + v19 (ix2 (0 : Fin 1) (0 : Fin 1))

/-- The context vectors of all 128 batch rows of a tile, as a function of the output block's index `(row, feature)`:
    from the feature block `A1` and the weights' block `A10`. -/
def ctxOfBuf (A1 : S128x64x256.Idx → EReal) (A10 : S128x64.Idx → EReal) : S128x256.Idx → EReal :=
  fun j => ∑ l : Fin 64, A1 (ix3 (j 0) l (j 1)) * A10 (ix2 (j 0) l)

/-- The piece of trip `k` of the first loop, at its local index, is the logits at the index under it. -/
theorem piece_t1 (arg1 : Memref sig .tc .vmem S128x64x256 .f32) (harg1 : arg1.IsWhole) (arg2 : Memref sig .tc .vmem S128x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S128x256 .f32) (harg9 : arg9.IsWhole) (arg10 : Memref sig .tc .vmem S128x64 .f32) (harg10 : arg10.IsWhole) (arg11 : Memref sig .tc .vmem S128x512 .f32) (harg11 : arg11.IsWhole) (arg12 : Memref sig .tc .vmem S128x64 .f32) (harg12 : arg12.IsWhole)
    (v12 : Vec Ideal S256x512 .f32) (v14 v16 : Vec Ideal S1x512 .f32) (v19 : Vec Ideal S1x1 .f32)
    (X1 : BufTy.Contents (Elt Ideal) arg1.view.ty) (X11 : BufTy.Contents (Elt Ideal) arg11.view.ty)
    (k : Fin k0_t1_loop.trips) (x : S16x64.Idx) :
    k0_pay4 (F := Ideal) v12 v14 v16 v19
        (View.readAt (Elt Ideal) arg1.view (Rect.unit (s := S128x64x256) (k0_off1 k) S16x64x256.size (k0_off1_inb k)).toLoadRect X1)
        (View.readAt (Elt Ideal) arg11.view (Rect.unit (s := S128x512) (k0_off2 k) S16x512.size (k0_off2_inb k)).toLoadRect X11) x
      = logitsOf v12 v14 v16 v19 (arg1.view.read (Elt Ideal) X1) (arg11.view.read (Elt Ideal) X11)
          ((Rect.unit (s := S128x64) (k0_off3 k) S16x64.size (k0_off3_inb k)).emb x) := by
  obtain ⟨r, l, rfl⟩ : ∃ (r : Fin 16) (l : Fin 64), x = ix2 r l := ⟨x 0, x 1, eq_ix2 x⟩
  rw [Payloads.pay4_apply]
  unfold logitsOf
  have e1 : ∀ d : Fin 256,
      View.readAt (Elt Ideal) arg1.view (Rect.unit (s := S128x64x256) (k0_off1 k) S16x64x256.size (k0_off1_inb k)).toLoadRect X1 (ix3 r l d)
        = arg1.view.read (Elt Ideal) X1
            (ix3 ((Rect.unit (s := S128x64) (k0_off3 k) S16x64.size (k0_off3_inb k)).emb (ix2 r l) 0)
              ((Rect.unit (s := S128x64) (k0_off3 k) S16x64.size (k0_off3_inb k)).emb (ix2 r l) 1) d) := fun d =>
    congrArg (arg1.view.read (Elt Ideal) X1) (funext fun a => Fin.ext (by
      match a with
      | ⟨0, _⟩ =>
        show k0_off1 k 0 + 1 * r.val = k0_off3 k 0 + 1 * r.val
        rw [k0_off1_eq, k0_off3_eq]; rfl
      | ⟨1, _⟩ =>
        show k0_off1 k 1 + 1 * l.val = k0_off3 k 1 + 1 * l.val
        rw [k0_off1_eq, k0_off3_eq]; rfl
      | ⟨2, _⟩ =>
        show k0_off1 k 2 + 1 * d.val = d.val
        rw [k0_off1_eq]
        show 0 + 1 * d.val = d.val
        omega))
  have e2 : ∀ u : Fin 512,
      View.readAt (Elt Ideal) arg11.view (Rect.unit (s := S128x512) (k0_off2 k) S16x512.size (k0_off2_inb k)).toLoadRect X11 (ix2 r u)
        = arg11.view.read (Elt Ideal) X11
            (ix2 ((Rect.unit (s := S128x64) (k0_off3 k) S16x64.size (k0_off3_inb k)).emb (ix2 r l) 0) u) := fun u =>
    congrArg (arg11.view.read (Elt Ideal) X11) (funext fun a => Fin.ext (by
      match a with
      | ⟨0, _⟩ =>
        show k0_off2 k 0 + 1 * r.val = k0_off3 k 0 + 1 * r.val
        rw [k0_off2_eq, k0_off3_eq]
      | ⟨1, _⟩ =>
        show k0_off2 k 1 + 1 * u.val = u.val
        rw [k0_off2_eq]
        show 0 + 1 * u.val = u.val
        omega))
  simp only [e1, e2]

/-- The piece of trip `k` of the second loop, at its local index, is the context vectors at the index under it. -/
theorem piece_t2 (arg1 : Memref sig .tc .vmem S128x64x256 .f32) (harg1 : arg1.IsWhole) (arg2 : Memref sig .tc .vmem S128x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S128x256 .f32) (harg9 : arg9.IsWhole) (arg10 : Memref sig .tc .vmem S128x64 .f32) (harg10 : arg10.IsWhole) (arg11 : Memref sig .tc .vmem S128x512 .f32) (harg11 : arg11.IsWhole) (arg12 : Memref sig .tc .vmem S128x64 .f32) (harg12 : arg12.IsWhole)
    (X1 : BufTy.Contents (Elt Ideal) arg1.view.ty) (X10 : BufTy.Contents (Elt Ideal) arg10.view.ty)
    (k : Fin k0_t2_loop.trips) (x : S16x256.Idx) :
    k0_pay2 (F := Ideal)
        (View.readAt (Elt Ideal) arg1.view (Rect.unit (s := S128x64x256) (k0_off4 k) S16x64x256.size (k0_off4_inb k)).toLoadRect X1)
        (View.readAt (Elt Ideal) arg10.view (Rect.unit (s := S128x64) (k0_off5 k) S16x64.size (k0_off5_inb k)).toLoadRect X10) x
      = ctxOfBuf (arg1.view.read (Elt Ideal) X1) (arg10.view.read (Elt Ideal) X10)
          ((Rect.unit (s := S128x256) (k0_off6 k) S16x256.size (k0_off6_inb k)).emb x) := by
  obtain ⟨r, d, rfl⟩ : ∃ (r : Fin 16) (d : Fin 256), x = ix2 r d := ⟨x 0, x 1, eq_ix2 x⟩
  rw [Payloads.pay2_apply]
  unfold ctxOfBuf
  have e1 : ∀ l : Fin 64,
      View.readAt (Elt Ideal) arg1.view (Rect.unit (s := S128x64x256) (k0_off4 k) S16x64x256.size (k0_off4_inb k)).toLoadRect X1 (ix3 r l d)
        = arg1.view.read (Elt Ideal) X1
            (ix3 ((Rect.unit (s := S128x256) (k0_off6 k) S16x256.size (k0_off6_inb k)).emb (ix2 r d) 0) l
              ((Rect.unit (s := S128x256) (k0_off6 k) S16x256.size (k0_off6_inb k)).emb (ix2 r d) 1)) := fun l =>
    congrArg (arg1.view.read (Elt Ideal) X1) (funext fun a => Fin.ext (by
      match a with
      | ⟨0, _⟩ =>
        show k0_off4 k 0 + 1 * r.val = k0_off6 k 0 + 1 * r.val
        rw [k0_off4_eq, k0_off6_eq]; rfl
      | ⟨1, _⟩ =>
        show k0_off4 k 1 + 1 * l.val = l.val
        rw [k0_off4_eq]
        show 0 + 1 * l.val = l.val
        omega
      | ⟨2, _⟩ =>
        show k0_off4 k 2 + 1 * d.val = k0_off6 k 1 + 1 * d.val
        rw [k0_off4_eq, k0_off6_eq]; rfl))
  have e2 : ∀ l : Fin 64,
      View.readAt (Elt Ideal) arg10.view (Rect.unit (s := S128x64) (k0_off5 k) S16x64.size (k0_off5_inb k)).toLoadRect X10 (ix2 r l)
        = arg10.view.read (Elt Ideal) X10
            (ix2 ((Rect.unit (s := S128x256) (k0_off6 k) S16x256.size (k0_off6_inb k)).emb (ix2 r d) 0) l) := fun l =>
    congrArg (arg10.view.read (Elt Ideal) X10) (funext fun a => Fin.ext (by
      match a with
      | ⟨0, _⟩ =>
        show k0_off5 k 0 + 1 * r.val = k0_off6 k 0 + 1 * r.val
        rw [k0_off5_eq, k0_off6_eq]
      | ⟨1, _⟩ =>
        show k0_off5 k 1 + 1 * l.val = l.val
        rw [k0_off5_eq]
        show 0 + 1 * l.val = l.val
        omega))
  simp only [e1, e2]

/-- Every piece of the first `n` trips of the first loop is the logits restricted to its rectangle. -/
theorem pieces_t1 (c : Dev nD) (i : grid0.Coords) (arg1 : Memref sig .tc .vmem S128x64x256 .f32) (harg1 : arg1.IsWhole) (arg2 : Memref sig .tc .vmem S128x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S128x256 .f32) (harg9 : arg9.IsWhole) (arg10 : Memref sig .tc .vmem S128x64 .f32) (harg10 : arg10.IsWhole) (arg11 : Memref sig .tc .vmem S128x512 .f32) (harg11 : arg11.IsWhole) (arg12 : Memref sig .tc .vmem S128x64 .f32) (harg12 : arg12.IsWhole)
    (v12 : Vec Ideal S256x512 .f32) (v14 v16 : Vec Ideal S1x512 .f32) (v19 : Vec Ideal S1x1 .f32)
    (X1 : BufTy.Contents (Elt Ideal) arg1.view.ty) (X11 : BufTy.Contents (Elt Ideal) arg11.view.ty) (n : ℕ) :
    ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 v12 v14 v16 v19 X1 X11 n,
      ∀ x : p.1.shape.Idx,
        p.2 x = logitsOf v12 v14 v16 v19 (arg1.view.read (Elt Ideal) X1) (arg11.view.read (Elt Ideal) X11) (p.1.emb x) := by
  induction n with
  | zero =>
    intro p hp
    rw [pb_k0_t1.eq_1] at hp
    exact absurd hp List.not_mem_nil
  | succ n ih =>
    intro p hp
    rw [pb_k0_t1.eq_2] at hp
    unfold pb_k0_t1Step at hp
    by_cases h : n < k0_t1_loop.trips
    · rw [dif_pos h, tripL_t1_eq, List.mem_append, List.mem_singleton] at hp
      rcases hp with rfl | hp
      · exact fun x => piece_t1 arg1 harg1 arg2 harg2 arg3 harg3 arg4 harg4 arg5 harg5 arg6 harg6 arg7 harg7 arg8 harg8 arg9 harg9 arg10 harg10 arg11 harg11 arg12 harg12 v12 v14 v16 v19 X1 X11 ⟨n, h⟩ x
      · exact ih p hp
    · rw [dif_neg h] at hp
      exact ih p hp

/-- Every piece of the first `n` trips of the second loop is the context vectors restricted to its rectangle. -/
theorem pieces_t2 (c : Dev nD) (i : grid0.Coords) (arg1 : Memref sig .tc .vmem S128x64x256 .f32) (harg1 : arg1.IsWhole) (arg2 : Memref sig .tc .vmem S128x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S128x256 .f32) (harg9 : arg9.IsWhole) (arg10 : Memref sig .tc .vmem S128x64 .f32) (harg10 : arg10.IsWhole) (arg11 : Memref sig .tc .vmem S128x512 .f32) (harg11 : arg11.IsWhole) (arg12 : Memref sig .tc .vmem S128x64 .f32) (harg12 : arg12.IsWhole)
    (X1 : BufTy.Contents (Elt Ideal) arg1.view.ty) (X10 : BufTy.Contents (Elt Ideal) arg10.view.ty) (n : ℕ) :
    ∀ p ∈ pb_k0_t2 (F := Ideal) Variants.none c none i arg1 harg1 arg2 harg2 arg3 harg3 arg4 harg4 arg5 harg5 arg6 harg6 arg7 harg7 arg8 harg8 arg9 harg9 arg10 harg10 arg11 harg11 arg12 harg12 X1 X10 n,
      ∀ x : p.1.shape.Idx,
        p.2 x = ctxOfBuf (arg1.view.read (Elt Ideal) X1) (arg10.view.read (Elt Ideal) X10) (p.1.emb x) := by
  induction n with
  | zero =>
    intro p hp
    rw [pb_k0_t2.eq_1] at hp
    exact absurd hp List.not_mem_nil
  | succ n ih =>
    intro p hp
    rw [pb_k0_t2.eq_2] at hp
    unfold pb_k0_t2Step at hp
    by_cases h : n < k0_t2_loop.trips
    · rw [dif_pos h, tripL_t2_eq, List.mem_append, List.mem_singleton] at hp
      rcases hp with rfl | hp
      · exact fun x => piece_t2 arg1 harg1 arg2 harg2 arg3 harg3 arg4 harg4 arg5 harg5 arg6 harg6 arg7 harg7 arg8 harg8 arg9 harg9 arg10 harg10 arg11 harg11 arg12 harg12 X1 X10 ⟨n, h⟩ x
      · exact ih p hp
    · rw [dif_neg h] at hp
      exact ih p hp

end Cert.KernelIdeal.LoopPieces

end
-- ==== Proof.KernelBlock.lean ====
/-
  One tile of the attention kernel, read off its stores: the two output blocks as the specification's rows.

  The kernel's body, on a tile of 128 batch rows, leaves in its two output blocks
    output 9 (r, l) = the attention weight of position l of batch row r,
    output 8 (r, d) = the context vector of batch row r at feature d,
  each computed from row r of the tile's feature block and of its hidden block, and from the six weight blocks.

  The road: the second output's one store is the quotient of the exponentials by their row sums, of the logits'
  scratch block read whole after the first loop; that block is, index by index, the logits of all 128 rows (every
  piece the loop stores is their restriction); the hidden projection it reads is the one store into the other
  scratch block. The first output is the second loop's pieces, the weighted sums of the feature rows by the
  weights just stored.
-/
import proofs.«146036_j2662879723876_2_alg».proof.Proof.IdealFrame
import proofs.«146036_j2662879723876_2_alg».proof.Proof.LoopPieces
import proofs.«146036_j2662879723876_2_alg».proof.Proof.Payloads
import proofs.«146036_j2662879723876_2_alg».proof.Proof.Spec
import Idealize.ShloMosaic.Lib.Pipeline.Value
import Idealize.ShloMosaic.Lib.Pipeline.FrameBody
import Idealize.ShloMosaic.Lib.Tactic
import Idealize.ShloMosaic.Lib.ValueIdx

noncomputable section

open scoped BigOperators

namespace Cert.KernelIdeal.Block

open Cert.KernelIdeal Cert.KernelIdeal.Gen Cert.KernelIdeal.GenP Idealize.ShloMosaic Idealize.ShloMosaic.ValueIdx Idealize.ShloMosaic.Tactic

/-- The weights and biases of the specification, read off the six weight blocks. -/
def blockParams (x2 : Vec Ideal S256x512 .f32) (x3 : Vec Ideal S1x512 .f32) (x4 : Vec Ideal S512x512 .f32)
    (x5 x6 : Vec Ideal S1x512 .f32) (x7 : Vec Ideal S1x1 .f32) : Cert.Attention.Params where
  W1 d u := x2 (ix2 d u)
  b1 u := x3 (ix2 (0 : Fin 1) u)
  W2 k u := x4 (ix2 k u)
  b2 u := x5 (ix2 (0 : Fin 1) u)
  V u := x6 (ix2 (0 : Fin 1) u)
  bV := x7 (ix2 (0 : Fin 1) (0 : Fin 1))

/-! ## Small facts over variables -/

/-- The zero offsets of a rank-2 block, however spelt. -/
theorem zero2 : (![0, 0] : Fin 2 → ℕ) = fun _ => 0 :=
  funext fun a => by match a with | ⟨0, _⟩ => rfl | ⟨1, _⟩ => rfl

/-- A whole-block load off a whole buffer holding `x` reads `x`. -/
theorem readAt_whole_unread {S : Shape} (M : Memref sig .tc .vmem S .f32) (h : M.IsWhole) {off : Fin S.rank → ℕ}
    (hz : off = fun _ => 0) (inb : ∀ a, off a + S.size a ≤ S.size a) (x : Vec Ideal S .f32) :
    View.readAt (Elt Ideal) M.view (Rect.unit (s := S) off S.size inb).toLoadRect (h.unread x) = x :=
  (View.readAt_eq_ld M.view (h.unread x) _).trans ((View.ld_unit_zero hz inb _).trans (h.read_unread x))

/-- A buffer written once, whole, over anything, reads the payload. -/
theorem read_one_store {S : Shape} (M : Memref sig .tc .vmem S .f32) {off : Fin S.rank → ℕ}
    (hz : off = fun _ => 0) (inb : ∀ a, off a + S.size a ≤ S.size a) (w : S.Idx → Elt Ideal .f32) :
    M.view.read (Elt Ideal) (M.view.writes (Elt Ideal) M.view.junk
      [(⟨Rect.unit (s := S) off S.size inb, w⟩ : View.Piece (Elt Ideal) S .f32)]) = w :=
  (View.read_writes_junk_eq_canon M.view _).trans (View.canon_unit_zero hz inb w)

/-- The hidden projection's payload of equal blocks is equal. -/
theorem pay3_congr {a a' : Vec Ideal S128x512 .f32} {b b' : Vec Ideal S512x512 .f32} {e e' : Vec Ideal S1x512 .f32}
    (ha : a = a') (hb : b = b') (he : e = e') : k0_pay3 (F := Ideal) a b e = k0_pay3 a' b' e' := by
  subst ha hb he; rfl

/-- The quotient of the exponentials by their row sums, at `(r, l)`, is the softmax weight of row `r`'s values. -/
theorem weights_apply (VL : Vec Ideal S128x64 .f32) (r : Fin 128) (l : Fin 64) :
    k0_pay1 (F := Ideal) (k0_pay5 VL) (k0_pay6 VL) (ix2 r l) = Cert.Attention.weight (fun l' => VL (ix2 r l')) l := by
  rw [Payloads.pay1_apply, Payloads.pay5_apply, Payloads.pay6_apply]
  rfl

/-- The eight row blocks the second loop stores tile the output block, so they cover it. -/
theorem cover_t2 (c : Dev nD) (i : grid0.Coords) (arg1 : Memref sig .tc .vmem S128x64x256 .f32) (harg1 : arg1.IsWhole) (arg2 : Memref sig .tc .vmem S128x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S128x256 .f32) (harg9 : arg9.IsWhole) (arg10 : Memref sig .tc .vmem S128x64 .f32) (harg10 : arg10.IsWhole) (arg11 : Memref sig .tc .vmem S128x512 .f32) (harg11 : arg11.IsWhole) (arg12 : Memref sig .tc .vmem S128x64 .f32) (harg12 : arg12.IsWhole)
    (X1 : BufTy.Contents (Elt Ideal) arg1.view.ty) (X10 : BufTy.Contents (Elt Ideal) arg10.view.ty) (y : S128x256.Idx) :
    ∃ pc ∈ pb_k0_t2 (F := Ideal) Variants.none c none i arg1 harg1 arg2 harg2 arg3 harg3 arg4 harg4 arg5 harg5 arg6 harg6 arg7 harg7 arg8 harg8 arg9 harg9 arg10 harg10 arg11 harg11 arg12 harg12 X1 X10
        (Scf.trips k0_t2_loop.lb k0_t2_loop.ub k0_t2_loop.st), y ∈ pc.1.set :=
  View.cover_of_tiledL (s := S128x256) _ S16x256.size (by sl_kernel_rfl) y

/-! ## The logits' scratch block -/

/-- The logits of all 128 rows, from the tile's blocks, are the specification's logits row by row: the hidden
    projection's block is the specification's projection of the hidden row. -/
theorem logitsOf_eq_logit (x0 : Vec Ideal S128x64x256 .f32) (x1 : Vec Ideal S128x512 .f32) (x2 : Vec Ideal S256x512 .f32) (x3 : Vec Ideal S1x512 .f32) (x4 : Vec Ideal S512x512 .f32) (x5 x6 : Vec Ideal S1x512 .f32) (x7 : Vec Ideal S1x1 .f32) (r : Fin 128) (l' : Fin 64) :
    LoopPieces.logitsOf x2 x3 x6 x7 x0 (k0_pay3 (F := Ideal) x1 x4 x5) (ix2 r l')
      = Cert.Attention.logit (blockParams x2 x3 x4 x5 x6 x7) (fun l d => x0 (ix3 r l d)) (fun k => x1 (ix2 r k)) l' := by
  unfold LoopPieces.logitsOf
  simp only [Payloads.pay3_apply]
  rfl

/-- The scratch block of the logits, loaded whole after the first loop's stores, at `(r, l')`: the specification's
    logit, given what the loop's operands read. -/
theorem logitsRead (c : Dev nD) (i : grid0.Coords) (arg1 : Memref sig .tc .vmem S128x64x256 .f32) (harg1 : arg1.IsWhole) (arg2 : Memref sig .tc .vmem S128x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S128x256 .f32) (harg9 : arg9.IsWhole) (arg10 : Memref sig .tc .vmem S128x64 .f32) (harg10 : arg10.IsWhole) (arg11 : Memref sig .tc .vmem S128x512 .f32) (harg11 : arg11.IsWhole) (arg12 : Memref sig .tc .vmem S128x64 .f32) (harg12 : arg12.IsWhole)
    (v12 : Vec Ideal S256x512 .f32) (v14 v16 : Vec Ideal S1x512 .f32) (v19 : Vec Ideal S1x1 .f32)
    (X1 : BufTy.Contents (Elt Ideal) arg1.view.ty) (X11 : BufTy.Contents (Elt Ideal) arg11.view.ty) (x0 : Vec Ideal S128x64x256 .f32) (x1 : Vec Ideal S128x512 .f32) (x2 : Vec Ideal S256x512 .f32) (x3 : Vec Ideal S1x512 .f32) (x4 : Vec Ideal S512x512 .f32) (x5 x6 : Vec Ideal S1x512 .f32) (x7 : Vec Ideal S1x1 .f32)
    {off : Fin 2 → ℕ} (hz : off = fun _ => 0) (inb : ∀ a, off a + S128x64.size a ≤ S128x64.size a)
    (h12 : v12 = x2) (h14 : v14 = x3) (h16 : v16 = x6) (h19 : v19 = x7)
    (h1 : arg1.view.read (Elt Ideal) X1 = x0) (h11 : arg11.view.read (Elt Ideal) X11 = k0_pay3 (F := Ideal) x1 x4 x5)
    (r : Fin 128) (l' : Fin 64) :
    View.readAt (Elt Ideal) arg12.view (Rect.unit (s := S128x64) off S128x64.size inb).toLoadRect
        (arg12.view.writes (Elt Ideal) arg12.view.junk
          (pb_k0_t1 (F := Ideal) Variants.none c none i arg1 harg1 arg2 harg2 arg3 harg3 arg4 harg4 arg5 harg5 arg6 harg6 arg7 harg7 arg8 harg8 arg9 harg9 arg10 harg10 arg11 harg11 arg12 harg12 v12 v14 v16 v19 X1 X11
            (Scf.trips k0_t1_loop.lb k0_t1_loop.ub k0_t1_loop.st))) (ix2 r l')
      = Cert.Attention.logit (blockParams x2 x3 x4 x5 x6 x7) (fun l d => x0 (ix3 r l d)) (fun k => x1 (ix2 r k)) l' := by
  subst h12 h14 h16 h19
  refine (congrFun ((View.readAt_eq_ld arg12.view _ _).trans (View.ld_unit_zero hz inb _)) _).trans ?_
  refine (View.read_writes_junk_apply_eq_canon arg12.view _ _).trans ?_
  refine (View.canon_apply_of_pieces (LoopPieces.logitsOf v12 v14 v16 v19 (arg1.view.read (Elt Ideal) X1)
    (arg11.view.read (Elt Ideal) X11)) _ (LoopPieces.pieces_t1 c i arg1 harg1 arg2 harg2 arg3 harg3 arg4 harg4 arg5 harg5 arg6 harg6 arg7 harg7 arg8 harg8 arg9 harg9 arg10 harg10 arg11 harg11 arg12 harg12 v12 v14 v16 v19 X1 X11 _) _
    (GenP.cover_t1 c i arg1 harg1 arg2 harg2 arg3 harg3 arg4 harg4 arg5 harg5 arg6 harg6 arg7 harg7 arg8 harg8 arg9 harg9 arg10 harg10 arg11 harg11 arg12 harg12 v12 v14 v16 v19 X1 X11 _)).trans ?_
  rw [h1, h11]
  exact logitsOf_eq_logit x0 x1 v12 v14 x4 x5 v16 v19 r l'

/-- The quotient payload of a block whose rows are the specification's logits is the specification's attention
    weights. -/
theorem attn_of_logits (VL : Vec Ideal S128x64 .f32) (P : Cert.Attention.Params) (f : Fin 64 → Fin 256 → EReal)
    (h : Fin 512 → EReal) (r : Fin 128) (hVL : ∀ l', VL (ix2 r l') = Cert.Attention.logit P f h l') (l : Fin 64) :
    k0_pay1 (F := Ideal) (k0_pay5 VL) (k0_pay6 VL) (ix2 r l) = Cert.Attention.attnRow P f h l := by
  refine (weights_apply VL r l).trans ?_
  unfold Cert.Attention.attnRow
  exact congrArg (fun x => Cert.Attention.weight x l) (funext hVL)

/-! ## The run's two piece lists -/

/-- The one piece the run stores into the weights' block, read at `(r, l)`: the attention weight of position `l`
    of batch row `r`. -/
theorem canon_L9 (c : Dev nD) (i : grid0.Coords) (arg1 : Memref sig .tc .vmem S128x64x256 .f32) (harg1 : arg1.IsWhole) (arg2 : Memref sig .tc .vmem S128x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S128x256 .f32) (harg9 : arg9.IsWhole) (arg10 : Memref sig .tc .vmem S128x64 .f32) (harg10 : arg10.IsWhole) (arg11 : Memref sig .tc .vmem S128x512 .f32) (harg11 : arg11.IsWhole) (arg12 : Memref sig .tc .vmem S128x64 .f32) (harg12 : arg12.IsWhole) (x0 : Vec Ideal S128x64x256 .f32) (x1 : Vec Ideal S128x512 .f32) (x2 : Vec Ideal S256x512 .f32) (x3 : Vec Ideal S1x512 .f32) (x4 : Vec Ideal S512x512 .f32) (x5 x6 : Vec Ideal S1x512 .f32) (x7 : Vec Ideal S1x1 .f32) (r : Fin 128) (l : Fin 64) :
    View.canon (GenP.kernelRun0_A_at (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 arg12.view.junk).2.1 (ix2 r l)
      = Cert.Attention.attnRow (blockParams x2 x3 x4 x5 x6 x7) (fun l' d => x0 (ix3 r l' d)) (fun k => x1 (ix2 r k)) l := by
  unfold GenP.kernelRun0_A_at
  dsimp only
  sl_unfold_run_names
  refine (congrFun (View.canon_unit_zero zero2 _ _) _).trans ?_
  refine attn_of_logits _ _ _ _ r (fun l' => ?_) l
  exact logitsRead c i arg1 harg1 arg2 harg2 arg3 harg3 arg4 harg4 arg5 harg5 arg6 harg6 arg7 harg7 arg8 harg8 arg9 harg9 arg10 harg10 arg11 harg11 arg12 harg12 _ _ _ _ _ _ x0 x1 x2 x3 x4 x5 x6 x7 zero2 _
    (readAt_whole_unread arg3 harg3 zero2 _ x2) (readAt_whole_unread arg4 harg4 zero2 _ x3)
    (readAt_whole_unread arg7 harg7 zero2 _ x6) (readAt_whole_unread arg8 harg8 zero2 _ x7)
    (harg1.read_unread x0)
    ((read_one_store arg11 zero2 _ _).trans (pay3_congr (readAt_whole_unread arg2 harg2 zero2 _ x1)
      (readAt_whole_unread arg5 harg5 zero2 _ x4) (readAt_whole_unread arg6 harg6 zero2 _ x5)))
    r l'

/-- The pieces the run stores into the contexts' block, read at `(r, d)`: the context vector of batch row `r` at
    feature `d`. -/
theorem canon_L8 (c : Dev nD) (i : grid0.Coords) (arg1 : Memref sig .tc .vmem S128x64x256 .f32) (harg1 : arg1.IsWhole) (arg2 : Memref sig .tc .vmem S128x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S128x256 .f32) (harg9 : arg9.IsWhole) (arg10 : Memref sig .tc .vmem S128x64 .f32) (harg10 : arg10.IsWhole) (arg11 : Memref sig .tc .vmem S128x512 .f32) (harg11 : arg11.IsWhole) (arg12 : Memref sig .tc .vmem S128x64 .f32) (harg12 : arg12.IsWhole) (x0 : Vec Ideal S128x64x256 .f32) (x1 : Vec Ideal S128x512 .f32) (x2 : Vec Ideal S256x512 .f32) (x3 : Vec Ideal S1x512 .f32) (x4 : Vec Ideal S512x512 .f32) (x5 x6 : Vec Ideal S1x512 .f32) (x7 : Vec Ideal S1x1 .f32) (r : Fin 128) (d : Fin 256) :
    View.canon (GenP.kernelRun0_A_at (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 arg12.view.junk).1 (ix2 r d)
      = Cert.Attention.ctxRow (blockParams x2 x3 x4 x5 x6 x7) (fun l' d' => x0 (ix3 r l' d')) (fun k => x1 (ix2 r k)) d := by
  unfold GenP.kernelRun0_A_at
  dsimp only
  sl_unfold_run_names
  refine (View.canon_apply_of_pieces (LoopPieces.ctxOfBuf _ _) _ (LoopPieces.pieces_t2 c i arg1 harg1 arg2 harg2 arg3 harg3 arg4 harg4 arg5 harg5 arg6 harg6 arg7 harg7 arg8 harg8 arg9 harg9 arg10 harg10 arg11 harg11 arg12 harg12 _ _ _)
    (ix2 r d) (cover_t2 c i arg1 harg1 arg2 harg2 arg3 harg3 arg4 harg4 arg5 harg5 arg6 harg6 arg7 harg7 arg8 harg8 arg9 harg9 arg10 harg10 arg11 harg11 arg12 harg12 _ _ _)).trans ?_
  unfold LoopPieces.ctxOfBuf Cert.Attention.ctxRow Cert.Attention.ctxOf
  refine Finset.sum_congr rfl fun l _ => ?_
  refine congrArg₂ (· * ·) (congrFun (harg1.read_unread x0) _) ?_
  refine (congrFun (read_one_store arg10 zero2 _ _) _).trans ?_
  refine attn_of_logits _ _ _ _ r (fun l' => ?_) l
  exact logitsRead c i arg1 harg1 arg2 harg2 arg3 harg3 arg4 harg4 arg5 harg5 arg6 harg6 arg7 harg7 arg8 harg8 arg9 harg9 arg10 harg10 arg11 harg11 arg12 harg12 _ _ _ _ _ _ x0 x1 x2 x3 x4 x5 x6 x7 zero2 _
    (readAt_whole_unread arg3 harg3 zero2 _ x2) (readAt_whole_unread arg4 harg4 zero2 _ x3)
    (readAt_whole_unread arg7 harg7 zero2 _ x6) (readAt_whole_unread arg8 harg8 zero2 _ x7)
    (harg1.read_unread x0)
    ((read_one_store arg11 zero2 _ _).trans (pay3_congr (readAt_whole_unread arg2 harg2 zero2 _ x1)
      (readAt_whole_unread arg5 harg5 zero2 _ x4) (readAt_whole_unread arg6 harg6 zero2 _ x5)))
    r l'

/-! ## The two output blocks -/

/-- Output 9 of a tile at `(r, l)`: the attention weight of position `l` of batch row `r`. -/
theorem out9_apply (c : Dev nD) (i : grid0.Coords) (arg1 : Memref sig .tc .vmem S128x64x256 .f32) (harg1 : arg1.IsWhole) (arg2 : Memref sig .tc .vmem S128x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S128x256 .f32) (harg9 : arg9.IsWhole) (arg10 : Memref sig .tc .vmem S128x64 .f32) (harg10 : arg10.IsWhole) (arg11 : Memref sig .tc .vmem S128x512 .f32) (harg11 : arg11.IsWhole) (arg12 : Memref sig .tc .vmem S128x64 .f32) (harg12 : arg12.IsWhole) (x0 : Vec Ideal S128x64x256 .f32) (x1 : Vec Ideal S128x512 .f32) (x2 : Vec Ideal S256x512 .f32) (x3 : Vec Ideal S1x512 .f32) (x4 : Vec Ideal S512x512 .f32) (x5 x6 : Vec Ideal S1x512 .f32) (x7 : Vec Ideal S1x1 .f32) (r : Fin 128) (l : Fin 64) :
    GenP.out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 r l)
      = Cert.Attention.attnRow (blockParams x2 x3 x4 x5 x6 x7) (fun l' d => x0 (ix3 r l' d)) (fun k => x1 (ix2 r k)) l := by
  unfold GenP.out0_A_9
  refine (View.read_writes_junk_apply_eq_canon _ _ _).trans ?_
  exact canon_L9 c i arg1 harg1 arg2 harg2 arg3 harg3 arg4 harg4 arg5 harg5 arg6 harg6 arg7 harg7 arg8 harg8 arg9 harg9 arg10 harg10 arg11 harg11 arg12 harg12 x0 x1 x2 x3 x4 x5 x6 x7 r l

/-- Output 8 of a tile at `(r, d)`: the context vector of batch row `r` at feature `d`. -/
theorem out8_apply (c : Dev nD) (i : grid0.Coords) (arg1 : Memref sig .tc .vmem S128x64x256 .f32) (harg1 : arg1.IsWhole) (arg2 : Memref sig .tc .vmem S128x512 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1 .f32) (harg8 : arg8.IsWhole) (arg9 : Memref sig .tc .vmem S128x256 .f32) (harg9 : arg9.IsWhole) (arg10 : Memref sig .tc .vmem S128x64 .f32) (harg10 : arg10.IsWhole) (arg11 : Memref sig .tc .vmem S128x512 .f32) (harg11 : arg11.IsWhole) (arg12 : Memref sig .tc .vmem S128x64 .f32) (harg12 : arg12.IsWhole) (x0 : Vec Ideal S128x64x256 .f32) (x1 : Vec Ideal S128x512 .f32) (x2 : Vec Ideal S256x512 .f32) (x3 : Vec Ideal S1x512 .f32) (x4 : Vec Ideal S512x512 .f32) (x5 x6 : Vec Ideal S1x512 .f32) (x7 : Vec Ideal S1x1 .f32) (r : Fin 128) (d : Fin 256) :
    GenP.out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 r d)
      = Cert.Attention.ctxRow (blockParams x2 x3 x4 x5 x6 x7) (fun l' d' => x0 (ix3 r l' d')) (fun k => x1 (ix2 r k)) d := by
  unfold GenP.out0_A_8
  refine (View.read_writes_junk_apply_eq_canon _ _ _).trans ?_
  exact canon_L8 c i arg1 harg1 arg2 harg2 arg3 harg3 arg4 harg4 arg5 harg5 arg6 harg6 arg7 harg7 arg8 harg8 arg9 harg9 arg10 harg10 arg11 harg11 arg12 harg12 x0 x1 x2 x3 x4 x5 x6 x7 r d

end Cert.KernelIdeal.Block

end
-- ==== Proof.KernelArrays.lean ====
/-
  The kernel's two result arrays, as functions of its argument arrays.

  The grid has 16 points; point t works on batch rows 128·t … 128·t + 127, and for each of its rows computes the
  attention weights over the row's 64 positions and the row's context vector (Spec: `attnRow`, `ctxRow`), from that
  row of the feature and hidden blocks and from the six weight arrays, which every point sees whole. The biases and the
  vector V reach the kernel reshaped to one row ([512] → [1, 512], [512, 1] → [1, 512], [1] → [1, 1]); read back at an
  index they are the arguments' entries. Block t of each output array is what point t wrote, the blocks tile the
  arrays, so the arrays end holding the weights as a [2048, 64] array and the contexts as [2048, 256]; the weights
  are then reshaped to [2048, 64, 1], which at (b, l, 0) reads the [2048, 64] array at (b, l).
-/
import proofs.«146036_j2662879723876_2_alg».proof.Proof.IdealFrame
import proofs.«146036_j2662879723876_2_alg».proof.Proof.HostGlue
import proofs.«146036_j2662879723876_2_alg».proof.Proof.KernelBlock
import proofs.«146036_j2662879723876_2_alg».proof.Proof.Spec
import Idealize.ShloMosaic.Lib.Pipeline.Value
import Idealize.ShloMosaic.Lib.ValueIdx

noncomputable section

namespace Cert.KernelIdeal.Arrays

open Cert.KernelIdeal Cert.KernelIdeal.Gen Idealize.ShloMosaic Idealize.ShloMosaic.TcCoe Idealize.ShloMosaic.ValueIdx Idealize.SL.Sem
open Idealize.ShloMosaic.Pipeline (Dat)
open Cert.Attention Cert.KernelIdeal.HostGlue

variable (m : (ℓ : Loc nD τ sig) → Buf (Elt Ideal) ℓ) (c : Dev nD)

/-- The weights and biases read off the six weight arguments. -/
abbrev params : Params := paramsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The attention weights as a [2048, 64] array: what the kernel's second output array ends holding. -/
def attn2 : S2048x64.Idx → EReal :=
  fun j => attnRow (params m c) (featRow (m ((c.tc : Thread nD τ).loc main_arg0)) (j 0)) (hidRow (m ((c.tc : Thread nD τ).loc main_arg1)) (j 0)) (j 1)

/-- Two parameter records with the same entries are equal. -/
theorem params_ext {P Q : Params} (h1 : ∀ d u, P.W1 d u = Q.W1 d u) (h2 : ∀ u, P.b1 u = Q.b1 u) (h3 : ∀ k u, P.W2 k u = Q.W2 k u)
    (h4 : ∀ u, P.b2 u = Q.b2 u) (h5 : ∀ u, P.V u = Q.V u) (h6 : P.bV = Q.bV) : P = Q := by
  cases P; cases Q
  simp only [Params.mk.injEq]
  exact ⟨funext fun d => funext (h1 d), funext h2, funext fun k => funext (h3 k), funext h4, funext h5, h6⟩

/-- The two output windows' block indices over the grid: block t of the rows, the one block of the columns. -/
theorem idx_out : ∀ t : Fin cfg0.N, win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Where an element of point t's block of the weights sits in the array: batch row 128·t + r. -/
theorem emb9 (t : Fin cfg0.N) (r : Fin 128) (l : Fin 64) :
    ((cfg0.win 9).blk t).view.emb (ix2 r l : S128x64.Idx) = (ix2 (rowAt t r) l : S2048x64.Idx) := by
  obtain ⟨-, -, e2, e3⟩ := idx_out t
  funext a; apply Fin.ext
  match a with
  | ⟨0, _⟩ => show win0_9.index t (0 : Fin 2) * 128 + 1 * r.val = (rowAt t r).val; rw [rowAt_val]; omega
  | ⟨1, _⟩ => show win0_9.index t (1 : Fin 2) * 64 + 1 * l.val = l.val; omega

/-- Where an element of point t's block of the contexts sits in the array. -/
theorem emb8 (t : Fin cfg0.N) (r : Fin 128) (d : Fin 256) :
    ((cfg0.win 8).blk t).view.emb (ix2 r d : S128x256.Idx) = (ix2 (rowAt t r) d : S2048x256.Idx) := by
  obtain ⟨e0, e1, -, -⟩ := idx_out t
  funext a; apply Fin.ext
  match a with
  | ⟨0, _⟩ => show win0_8.index t (0 : Fin 2) * 128 + 1 * r.val = (rowAt t r).val; rw [rowAt_val]; omega
  | ⟨1, _⟩ => show win0_8.index t (1 : Fin 2) * 256 + 1 * d.val = d.val; omega

/-- The parameters a point reads through its six weight blocks are the arguments'. -/
theorem params_blk (t : Fin cfg0.N) :
    Block.blockParams (iblk m c 2 t) (iblk m c 3 t) (iblk m c 4 t) (iblk m c 5 t) (iblk m c 6 t) (iblk m c 7 t) = params m c :=
  params_ext
    (fun d u => (blk2 m c t _).trans (congrFun (V_main_arg2 m c) _))
    (fun u => (blk3 m c t _).trans (V_v0 m c u))
    (fun k u => (blk4 m c t _).trans (congrFun (V_main_arg4 m c) _))
    (fun u => (blk5 m c t _).trans (V_v1 m c u))
    (fun u => (blk6 m c t _).trans (V_v2 m c u))
    ((blk7 m c t _).trans (V_v3 m c))

/-- Row r of point t's feature block is batch row 128·t + r of the features. -/
theorem feat_blk (t : Fin cfg0.N) (r : Fin 128) :
    (fun (l' : Fin 64) (d : Fin 256) => (iblk m c 0 t : S128x64x256.Idx → EReal) (ix3 r l' d)) = featRow (m ((c.tc : Thread nD τ).loc main_arg0)) (rowAt t r) :=
  funext fun l' => funext fun d => (blk0 m c t r l' d).trans (congrFun (V_main_arg0 m c) _)

/-- Row r of point t's hidden block is batch row 128·t + r of the hidden array. -/
theorem hid_blk (t : Fin cfg0.N) (r : Fin 128) :
    (fun (k : Fin 512) => (iblk m c 1 t : S128x512.Idx → EReal) (ix2 r k)) = hidRow (m ((c.tc : Thread nD τ).loc main_arg1)) (rowAt t r) :=
  funext fun k => (blk1 m c t r k).trans (congrFun (V_main_arg1 m c) _)

/-- What point t leaves in the weights' staging buffer, at a block index: the weights of the batch row it stands for. -/
theorem flushed9_at (t : Fin cfg0.N) (y : S128x64.Idx) :
    ((GenP.outsAt0 m c t).2 : S128x64.Idx → EReal) y = attn2 m c (((cfg0.win 9).blk t).view.emb y) := by
  obtain ⟨r, l, rfl⟩ : ∃ (r : Fin 128) (l : Fin 64), y = ix2 r l := ⟨y 0, y 1, eq_ix2 y⟩
  rw [emb9]
  refine (Block.out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) r l).trans ?_
  rw [params_blk m c t, feat_blk m c t r, hid_blk m c t r]
  rfl

/-- What point t leaves in the contexts' staging buffer, at a block index. -/
theorem flushed8_at (t : Fin cfg0.N) (y : S128x256.Idx) :
    ((GenP.outsAt0 m c t).1 : S128x256.Idx → EReal) y
      = ctxArr (m ((c.tc : Thread nD τ).loc main_arg0)) (m ((c.tc : Thread nD τ).loc main_arg1)) (params m c) (((cfg0.win 8).blk t).view.emb y) := by
  obtain ⟨r, d, rfl⟩ : ∃ (r : Fin 128) (d : Fin 256), y = ix2 r d := ⟨y 0, y 1, eq_ix2 y⟩
  rw [emb8]
  refine (Block.out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) r d).trans ?_
  rw [params_blk m c t, feat_blk m c t r, hid_blk m c t r]
  rfl

/-- What point t writes back to the weights' array is block t of the weights. -/
theorem flushed9_eq (t : Fin cfg0.N) :
    (GenP.dats m 0 c).flushed 9 t = ((cfg0.win 9).blk t).view.read (Elt Ideal) (attn2 m c) := by
  show (cfg0.win 9).cut (grid0.coords t) ((GenP.dats m 0 c).after 9 t) = _
  rw [GenP.after0_9]
  funext y
  exact flushed9_at m c t y

/-- What point t writes back to the contexts' array is block t of the contexts. -/
theorem flushed8_eq (t : Fin cfg0.N) :
    (GenP.dats m 0 c).flushed 8 t
      = ((cfg0.win 8).blk t).view.read (Elt Ideal) (ctxArr (m ((c.tc : Thread nD τ).loc main_arg0)) (m ((c.tc : Thread nD τ).loc main_arg1)) (params m c)) := by
  show (cfg0.win 8).cut (grid0.coords t) ((GenP.dats m 0 c).after 8 t) = _
  rw [GenP.after0_8]
  funext y
  exact flushed8_at m c t y

/-- An index of the weights' array is in point t's block iff each coordinate is in the block's range on its axis. -/
theorem mem_blk9 (t : Fin cfg0.N) (i : S2048x64.Idx) :
    i ∈ ((cfg0.win 9).blk t).view.set ↔ ∀ a : Fin 2, win0_9.index t a * S128x64.size a ≤ (i a).val ∧ (i a).val < win0_9.index t a * S128x64.size a + S128x64.size a := by
  show i ∈ ((View.whole main_v4_1).slice (win0_9.rect t)).set ↔ _
  rw [View.set_slice_whole, Rect.mem_set_unit]
  exact Iff.rfl

/-- The same for the contexts' array. -/
theorem mem_blk8 (t : Fin cfg0.N) (i : S2048x256.Idx) :
    i ∈ ((cfg0.win 8).blk t).view.set ↔ ∀ a : Fin 2, win0_8.index t a * S128x256.size a ≤ (i a).val ∧ (i a).val < win0_8.index t a * S128x256.size a + S128x256.size a := by
  show i ∈ ((View.whole main_v4_0).slice (win0_8.rect t)).set ↔ _
  rw [View.set_slice_whole, Rect.mem_set_unit]
  exact Iff.rfl

/-- The point whose block holds batch row b: b / 128. -/
def pointOf (b : Nat) (hb : b < 2048) : Fin cfg0.N := ⟨b / 128, by have hN : cfg0.N = 16 := N_0; rw [hN]; omega⟩

theorem pointOf_val (b : Nat) (hb : b < 2048) : (pointOf b hb).val = b / 128 := rfl

/-- Every index of the weights' array is in some point's block. -/
theorem cover9 (i : S2048x64.Idx) :
    ∃ t : Fin cfg0.N, (cfg0.win 9).flush t = true ∧ i ∈ ((cfg0.win 9).blk t).view.set := by
  have hi0 : (i 0).val < 2048 := (i 0).isLt
  have hi1 : (i 1).val < 64 := (i 1).isLt
  refine ⟨pointOf (i 0).val hi0, flush0_9 _, ?_⟩
  rw [mem_blk9]
  obtain ⟨-, -, e2, e3⟩ := idx_out (pointOf (i 0).val hi0)
  rw [pointOf_val] at e2
  intro a
  match a with
  | ⟨0, _⟩ => show win0_9.index (pointOf (i 0).val hi0) (0 : Fin 2) * 128 ≤ (i 0).val ∧ (i 0).val < win0_9.index (pointOf (i 0).val hi0) (0 : Fin 2) * 128 + 128; omega
  | ⟨1, _⟩ => show win0_9.index (pointOf (i 0).val hi0) (1 : Fin 2) * 64 ≤ (i 1).val ∧ (i 1).val < win0_9.index (pointOf (i 0).val hi0) (1 : Fin 2) * 64 + 64; omega

/-- Every index of the contexts' array is in some point's block. -/
theorem cover8 (i : S2048x256.Idx) :
    ∃ t : Fin cfg0.N, (cfg0.win 8).flush t = true ∧ i ∈ ((cfg0.win 8).blk t).view.set := by
  have hi0 : (i 0).val < 2048 := (i 0).isLt
  have hi1 : (i 1).val < 256 := (i 1).isLt
  refine ⟨pointOf (i 0).val hi0, flush0_8 _, ?_⟩
  rw [mem_blk8]
  obtain ⟨e0, e1, -, -⟩ := idx_out (pointOf (i 0).val hi0)
  rw [pointOf_val] at e0
  intro a
  match a with
  | ⟨0, _⟩ => show win0_8.index (pointOf (i 0).val hi0) (0 : Fin 2) * 128 ≤ (i 0).val ∧ (i 0).val < win0_8.index (pointOf (i 0).val hi0) (0 : Fin 2) * 128 + 128; omega
  | ⟨1, _⟩ => show win0_8.index (pointOf (i 0).val hi0) (1 : Fin 2) * 256 ≤ (i 1).val ∧ (i 1).val < win0_8.index (pointOf (i 0).val hi0) (1 : Fin 2) * 256 + 256; omega

/-- The weights' array after the run. -/
theorem final9 : (GenP.dats m 0 c).arrAt 9 cfg0.N = attn2 m c :=
  (GenP.dats m 0 c).arrAt_eq_of_cover 9 (attn2 m c) (fun t _ => flushed9_eq m c t) cover9

/-- The contexts' array after the run. -/
theorem final8 : (GenP.dats m 0 c).arrAt 8 cfg0.N = ctxArr (m ((c.tc : Thread nD τ).loc main_arg0)) (m ((c.tc : Thread nD τ).loc main_arg1)) (params m c) :=
  (GenP.dats m 0 c).arrAt_eq_of_cover 8 (ctxArr (m ((c.tc : Thread nD τ).loc main_arg0)) (m ((c.tc : Thread nD τ).loc main_arg1)) (params m c)) (fun t _ => flushed8_eq m c t) cover8

/-- The reshaped weights, the program's second result: at (b, l, 0) the weight of position l of batch row b. -/
theorem attn_out :
    (Pipeline.afterTail₀ cfgs (GenP.dats m) 0 (V0 m) [hostOps1] c main_v5 : S2048x64x1.Idx → EReal)
      = attnArr (m ((c.tc : Thread nD τ).loc main_arg0)) (m ((c.tc : Thread nD τ).loc main_arg1)) (params m c) := by
  funext i
  obtain ⟨b, l, z, rfl⟩ : ∃ (b : Fin 2048) (l : Fin 64) (z : Fin 1), i = ix3 b l z := ⟨i 0, i 1, i 2, eq_ix3 i⟩
  obtain rfl : z = 0 := Subsingleton.elim _ _
  rw [after_v5 m c (GenP.dats m) b l, final9]
  rfl

/-- The frame run re-posted: the two results at the specification's arrays of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4_0) = Cert.Attention.ctxArr (m ((c.tc : Thread nD τ).loc main_arg0)) (m ((c.tc : Thread nD τ).loc main_arg1)) (Cert.Attention.paramsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_v5) = Cert.Attention.attnArr (m ((c.tc : Thread nD τ).loc main_arg0)) (m ((c.tc : Thread nD τ).loc main_arg1)) (Cert.Attention.paramsOf (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).1 8).trans (final8 m c),
      ((h c).2 main_v5 (Pipeline.mem_restRefs_of main_v5 (by decide) (by decide))).trans (attn_out m c),
      ((h c).1 0).trans (((GenP.dats m 0 c).arrAt_in 0 rfl _).trans ((GenP.A_eq m c 0).trans (V_main_arg0 m c))),
      ((h c).1 1).trans (((GenP.dats m 0 c).arrAt_in 1 rfl _).trans ((GenP.A_eq m c 1).trans (V_main_arg1 m c))),
      ((h c).1 2).trans (((GenP.dats m 0 c).arrAt_in 2 rfl _).trans ((GenP.A_eq m c 2).trans (V_main_arg2 m c))),
      (((h c).2 main_arg3 (Pipeline.mem_restRefs_of main_arg3 (by decide) (by decide))).trans (W_main_arg3 m (GenP.dats m) c)),
      ((h c).1 4).trans (((GenP.dats m 0 c).arrAt_in 4 rfl _).trans ((GenP.A_eq m c 4).trans (V_main_arg4 m c))),
      (((h c).2 main_arg5 (Pipeline.mem_restRefs_of main_arg5 (by decide) (by decide))).trans (W_main_arg5 m (GenP.dats m) c)),
      (((h c).2 main_arg6 (Pipeline.mem_restRefs_of main_arg6 (by decide) (by decide))).trans (W_main_arg6 m (GenP.dats m) c)),
      (((h c).2 main_arg7 (Pipeline.mem_restRefs_of main_arg7 (by decide) (by decide))).trans (W_main_arg7 m (GenP.dats m) c))⟩)
    (GenP.run_main m ρ)

end Cert.KernelIdeal.Arrays

end
-- ==== Proof.RefValue.lean ====
/-
  The reference program computes the specification.

  Read one element at a time, the reference is additive attention on the extended reals. At batch row b,
  position l and hidden unit u its first product plus bias is the features' projection
  (∑ d, f l d · W1 d u) + b1 u, its second the hidden vector's projection (∑ k, h k · W2 k u) + b2 u; the
  hyperbolic tangent of their sum, contracted with V and shifted by bV, is the logit of position l. The row's
  maximum is the fold of max over the 64 positions from −∞, taken once more against −∞, which changes nothing;
  the exponentials of the logits less the maximum, their sum from 0, and the quotient are the softmax weights;
  the context is the sum over the positions of weight · feature, the specification's feature · weight with the
  factors exchanged.
-/
import proofs.«146036_j2662879723876_2_alg».proof.Proof.Gen.ReferenceIdeal.Read
import proofs.«146036_j2662879723876_2_alg».proof.Proof.Spec

noncomputable section

open scoped BigOperators

namespace Cert.ReferenceIdeal.RefValue

open Cert.ReferenceIdeal Cert.ReferenceIdeal.Gen Cert.ReferenceIdeal.Read Cert.Attention
open Idealize.ShloMosaic Idealize.ShloMosaic.ValueIdx

variable (x0 : (⟨S2048x64x256, .f32⟩ : BufTy).Contents (Elt Ideal))
  (x1 : (⟨S2048x512, .f32⟩ : BufTy).Contents (Elt Ideal))
  (x2 : (⟨S256x512, .f32⟩ : BufTy).Contents (Elt Ideal))
  (x3 : (⟨S512, .f32⟩ : BufTy).Contents (Elt Ideal))
  (x4 : (⟨S512x512, .f32⟩ : BufTy).Contents (Elt Ideal))
  (x5 : (⟨S512, .f32⟩ : BufTy).Contents (Elt Ideal))
  (x6 : (⟨S512x1, .f32⟩ : BufTy).Contents (Elt Ideal))
  (x7 : (⟨S1, .f32⟩ : BufTy).Contents (Elt Ideal))

/-! ## The two projections -/

/-- The first product plus its bias is the features' projection. -/
theorem projF_at (b : Fin 2048) (l : Fin 64) (u : Fin 512) :
    val_main_v3 (F := Ideal) x0 x2 x3 (ix3 b l u)
      = projF (paramsOf x2 x3 x4 x5 x6 x7) (featRow x0 b) l u := by
  rw [val_main_v3_apply, val_main_v0_apply, val_main_v2_apply, val_main_v1_apply]
  refine congrArg₂ (· + ·) (Finset.sum_congr rfl fun d _ => congrArg₂ (· * ·) (congrArg x0 ?_) (congrArg x2 ?_))
    (congrArg x3 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The second product plus its bias is the hidden vector's projection. -/
theorem projH_at (b : Fin 2048) (u : Fin 512) :
    val_main_v7 (F := Ideal) x1 x4 x5 (ix2 b u)
      = projH (paramsOf x2 x3 x4 x5 x6 x7) (hidRow x1 b) u := by
  rw [val_main_v7_apply, val_main_v4_apply, val_main_v6_apply, val_main_v5_apply]
  refine congrArg₂ (· + ·) (Finset.sum_congr rfl fun k _ => congrArg₂ (· * ·) (congrArg x1 ?_) (congrArg x4 ?_))
    (congrArg x5 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-! ## The logits -/

/-- The contraction with V plus bV, at batch row b and position l, is the logit of position l. -/
theorem logit_at (b : Fin 2048) (l : Fin 64) (c : Fin 1) :
    val_main_v15 (F := Ideal) x0 x1 x2 x3 x4 x5 x6 x7 (ix3 b l c)
      = logit (paramsOf x2 x3 x4 x5 x6 x7) (featRow x0 b) (hidRow x1 b) l := by
  obtain rfl : c = 0 := Subsingleton.elim c 0
  rw [val_main_v15_apply, val_main_v12_apply, val_main_v14_apply, val_main_v13_apply]
  refine congrArg₂ (· + ·) (Finset.sum_congr rfl fun u _ => congrArg₂ (· * ·) ?_ (congrArg x6 ?_)) (congrArg x7 ?_)
  · have e : lidx_main_v12 (ix3 b l (0 : Fin 1)) u = ix3 b l u :=
      funext fun a => Fin.ext (by match a with | ⟨0, _⟩ => rfl | ⟨1, _⟩ => rfl | ⟨2, _⟩ => rfl)
    have e' : idx_main_v8 (idx_main_v9 (ix3 b l u)) = ix2 b u :=
      funext fun a => Fin.ext (by match a with | ⟨0, _⟩ => rfl | ⟨1, _⟩ => rfl)
    rw [e, val_main_v11_apply, val_main_v10_apply, val_main_v9_apply, val_main_v8_apply, e',
      projF_at x0 x2 x3 x4 x5 x6 x7, projH_at x1 x2 x3 x4 x5 x6 x7]
    rfl
  · exact funext fun a => Fin.ext (by match a with | ⟨0, _⟩ => rfl | ⟨1, _⟩ => rfl)
  · exact funext fun a => Fin.ext (by match a with | ⟨0, _⟩ => rfl)

/-! ## The row's maximum -/

/-- The index over the row index (b, c) with position k inserted on the reduced axis is (b, k, c). -/
theorem lift_at (h : S2048x64x1.Reduces [1] S2048x1) (b : Fin 2048) (c : Fin 1) (k : Fin (S2048x64x1.size 1)) :
    h.lift (ix2 b c) k = ix3 b (⟨k.val, k.isLt⟩ : Fin 64) c :=
  funext fun a => Fin.ext (by match a with | ⟨0, _⟩ => rfl | ⟨1, _⟩ => rfl | ⟨2, _⟩ => rfl)

/-- The reduction by max over the positions, taken once more against −∞, is the maximum of the row's logits. -/
theorem max_at (b : Fin 2048) (c : Fin 1) :
    val_main_v18 (F := Ideal) x0 x1 x2 x3 x4 x5 x6 x7 (ix2 b c)
      = rowMax (logit (paramsOf x2 x3 x4 x5 x6 x7) (featRow x0 b) (hidRow x1 b)) := by
  have h : S2048x64x1.Reduces [1] S2048x1 := by decide
  have hf : (val_main_v15 (F := Ideal) x0 x1 x2 x3 x4 x5 x6 x7 ∘ h.lift (ix2 b c))
      = logit (paramsOf x2 x3 x4 x5 x6 x7) (featRow x0 b) (hidRow x1 b) := funext fun k => by
    show val_main_v15 (F := Ideal) x0 x1 x2 x3 x4 x5 x6 x7 (h.lift (ix2 b c) k) = _
    rw [lift_at h b c k]
    exact logit_at x0 x1 x2 x3 x4 x5 x6 x7 b _ c
  rw [val_main_v18_apply, val_main_v17_apply, val_main_cst_0_apply]
  unfold val_main_v16
  rw [Host.reduce_eq_fold_single FloatOps.maximumf _ _ reducesTo_S2048x64x1_S2048x1_d1 h h_S_, hf]
  exact max_init_rowMax _

/-! ## The softmax weights -/

/-- The exponential of a logit less the row's maximum. -/
theorem expo_at (b : Fin 2048) (l : Fin 64) (c : Fin 1) :
    val_main_v22 (F := Ideal) x0 x1 x2 x3 x4 x5 x6 x7 (ix3 b l c)
      = expo (logit (paramsOf x2 x3 x4 x5 x6 x7) (featRow x0 b) (hidRow x1 b)) l := by
  have e : idx_main_v19 (idx_main_v20 (ix3 b l c)) = ix2 b (0 : Fin 1) :=
    funext fun a => Fin.ext (by match a with | ⟨0, _⟩ => rfl | ⟨1, _⟩ => rfl)
  rw [val_main_v22_apply, val_main_v21_apply, val_main_v20_apply, val_main_v19_apply, e,
    logit_at x0 x1 x2 x3 x4 x5 x6 x7, max_at x0 x1 x2 x3 x4 x5 x6 x7]
  rfl

/-- The sum from 0 of the row's exponentials. -/
theorem sum_at (b : Fin 2048) (c : Fin 1) :
    val_main_v23 (F := Ideal) x0 x1 x2 x3 x4 x5 x6 x7 (ix2 b c)
      = expoSum (logit (paramsOf x2 x3 x4 x5 x6 x7) (featRow x0 b) (hidRow x1 b)) := by
  rw [val_main_v23_apply, val_main_cst_1_apply, Ideal.ofBits_def, Ideal.ofBits_zero_f32, zero_add]
  refine Finset.sum_congr rfl fun k _ => ?_
  have e : idx_main_v23 (ix2 b c) k = ix3 b k c :=
    funext fun a => Fin.ext (by match a with | ⟨0, _⟩ => rfl | ⟨1, _⟩ => rfl | ⟨2, _⟩ => rfl)
  rw [e]
  exact expo_at x0 x1 x2 x3 x4 x5 x6 x7 b k c

/-- The quotient of an exponential by the row's sum is the attention weight. -/
theorem attn_at (b : Fin 2048) (l : Fin 64) (c : Fin 1) :
    val_main_v26 (F := Ideal) x0 x1 x2 x3 x4 x5 x6 x7 (ix3 b l c)
      = attnRow (paramsOf x2 x3 x4 x5 x6 x7) (featRow x0 b) (hidRow x1 b) l := by
  have e : idx_main_v24 (idx_main_v25 (ix3 b l c)) = ix2 b (0 : Fin 1) :=
    funext fun a => Fin.ext (by match a with | ⟨0, _⟩ => rfl | ⟨1, _⟩ => rfl)
  rw [val_main_v26_apply, val_main_v25_apply, val_main_v24_apply, e,
    expo_at x0 x1 x2 x3 x4 x5 x6 x7, sum_at x0 x1 x2 x3 x4 x5 x6 x7]
  rfl

/-- The reference's first result is the specification's array of attention weights. -/
theorem attn_eq :
    val_main_v26 (F := Ideal) x0 x1 x2 x3 x4 x5 x6 x7 = attnArr x0 x1 (paramsOf x2 x3 x4 x5 x6 x7) := by
  funext i
  obtain ⟨b, l, c, rfl⟩ : ∃ (b : Fin 2048) (l : Fin 64) (c : Fin 1), i = ix3 b l c := ⟨_, _, _, eq_ix3 i⟩
  exact attn_at x0 x1 x2 x3 x4 x5 x6 x7 b l c

/-! ## The context -/

/-- The sum from 0 over the positions of weight · feature is the context, the factors exchanged. -/
theorem ctx_at (b : Fin 2048) (d : Fin 256) :
    val_main_v29 (F := Ideal) x0 x1 x2 x3 x4 x5 x6 x7 (ix2 b d)
      = ctxRow (paramsOf x2 x3 x4 x5 x6 x7) (featRow x0 b) (hidRow x1 b) d := by
  rw [val_main_v29_apply, val_main_cst_2_apply, Ideal.ofBits_def, Ideal.ofBits_zero_f32, zero_add]
  unfold ctxRow ctxOf
  refine Finset.sum_congr rfl fun k _ => ?_
  have e : idx_main_v29 (ix2 b d) k = ix3 b k d :=
    funext fun a => Fin.ext (by match a with | ⟨0, _⟩ => rfl | ⟨1, _⟩ => rfl | ⟨2, _⟩ => rfl)
  have e' : idx_main_v27 (ix3 b k d) = ix3 b k (0 : Fin 1) :=
    funext fun a => Fin.ext (by match a with | ⟨0, _⟩ => rfl | ⟨1, _⟩ => rfl | ⟨2, _⟩ => rfl)
  rw [e, val_main_v28_apply, val_main_v27_apply, e', attn_at x0 x1 x2 x3 x4 x5 x6 x7, Ideal.mulf_def]
  exact mul_comm _ _

/-- The reference's second result is the specification's array of context vectors. -/
theorem ctx_eq :
    val_main_v29 (F := Ideal) x0 x1 x2 x3 x4 x5 x6 x7 = ctxArr x0 x1 (paramsOf x2 x3 x4 x5 x6 x7) := by
  funext i
  obtain ⟨b, d, rfl⟩ : ∃ (b : Fin 2048) (d : Fin 256), i = ix2 b d := ⟨_, _, eq_ix2 i⟩
  exact ctx_at x0 x1 x2 x3 x4 x5 x6 x7 b d

end Cert.ReferenceIdeal.RefValue

end
-- ==== Proof.lean ====
/-
  Additive attention: the kernel and the reference compute one function of their eight argument arrays.

  For each of 2048 batch rows, with 64 positions of 256 features f l d and a hidden vector h k of length 512,
  the logit of position l is (∑ u, tanh ((∑ d, f l d · W1 d u) + b1 u + (∑ k, h k · W2 k u) + b2 u) · V u) + bV;
  the attention weights are the softmax of the row's logits (the exponentials of the logits less their maximum,
  divided by their sum); the context vector is the weighted sum ∑ l, f l d · weight l of the features. The
  specification (Proof/Spec.lean, Cert.Attention) states this on the extended reals, one batch row at a time, and
  collects the weights as the [2048, 64, 1] array attnArr and the contexts as the [2048, 256] array ctxArr of the
  argument arrays.

  The claim is assembled from two runs read through that specification. On the extended reals the kernel's run
  ends with its two result arrays at ctxArr and attnArr of its argument arrays, the arguments unchanged
  (Proof/KernelArrays.lean). The reference's run ends with its two results at the composition of its operations
  applied to its argument arrays, and that composition is the same two functions (Proof/RefValue.lean: ctx_eq,
  attn_eq). So from memories that agree on the arguments the two programs end with equal results, the contexts
  paired with the contexts and the weights with the weights.

  Each of the three programs also runs to the end with its arguments unchanged: the kernel at the bit-exact float
  values, the kernel read on the extended reals, and the reference on the extended reals. The kernel read on the
  extended reals is the kernel's own text with no operation replaced, so the preservation claim is the true
  proposition.
-/
import proofs.«146036_j2662879723876_2_alg».proof.Defs
import proofs.«146036_j2662879723876_2_alg».proof.Proof.Gen.Kernel
import proofs.«146036_j2662879723876_2_alg».proof.Proof.Gen.KernelIdeal
import proofs.«146036_j2662879723876_2_alg».proof.Proof.Gen.ReferenceIdeal
import proofs.«146036_j2662879723876_2_alg».proof.Proof.Gen.Pre_finite_inputs
import proofs.«146036_j2662879723876_2_alg».proof.Proof.BitsFrame
import proofs.«146036_j2662879723876_2_alg».proof.Proof.KernelArrays
import proofs.«146036_j2662879723876_2_alg».proof.Proof.RefValue
import Idealize.ShloMosaic.Adequacy
import Idealize.ShloMosaic.Init

noncomputable section

namespace Cert.Proof

open Idealize.ShloMosaic Idealize.SL.Sem

/-! ## The three programs run, their arguments unchanged -/

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was replaced on the way to the extended reals. -/
theorem preserves : Cert.preserves_Kernel_KernelIdeal := trivial

/-! ## The reference's run, read through the specification -/

/-- On the extended reals the reference ends with the context vectors and the attention weights of its argument
    arrays, the arguments unchanged. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v29) = Cert.Attention.ctxArr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        (Cert.Attention.paramsOf (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)))
      ∧ r.2.mem ((c.tc : Thread Cert.ReferenceIdeal.nD Cert.ReferenceIdeal.τ).loc Cert.ReferenceIdeal.main_v26) = Cert.Attention.attnArr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        (Cert.Attention.paramsOf (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run Cert.ReferenceIdeal.defs _ _).mono (fun _ h c =>
      ⟨(h c).1.trans ((Cert.ReferenceIdeal.Read.val_main_v29_eq m c).trans (Cert.ReferenceIdeal.RefValue.ctx_eq _ _ _ _ _ _ _ _)),
        (h c).2.1.trans ((Cert.ReferenceIdeal.Read.val_main_v26_eq m c).trans (Cert.ReferenceIdeal.RefValue.attn_eq _ _ _ _ _ _ _ _)),
        (h c).2.2⟩)
    (Cert.ReferenceIdeal.Value.run (F := Ideal) m ρ)

/-! ## The two programs end with equal results -/

theorem algebraic : Cert.algebraic_KernelIdeal_ReferenceIdeal := by
  intro m ρ m' ρ' _ hagree
  refine ⟨fun c => Cert.Attention.ctxArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (Cert.Attention.paramsOf (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7))),
    fun c => Cert.Attention.attnArr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (Cert.Attention.paramsOf (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) (m ((c.tc : Thread Cert.KernelIdeal.nD Cert.KernelIdeal.τ).loc Cert.KernelIdeal.main_arg7))),
    Cert.KernelIdeal.Arrays.run m ρ, ?_⟩
  refine (θ_run Cert.ReferenceIdeal.defs _ _).mono (fun _ h c => ?_) (reference_run m' ρ')
  obtain ⟨h0, h1, h2, h3, h4, h5, h6, h7⟩ := hagree c
  obtain ⟨e0, e1, rest⟩ := h c
  refine ⟨e0.trans ?_, e1.trans ?_, rest⟩
  · rw [h0, h1, h2, h3, h4, h5, h6, h7]
  · rw [h0, h1, h2, h3, h4, h5, h6, h7]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
